-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64 .f32) (main_arg6 : FVec F S64x32 .f32) (main_arg7 : FVec F S32 .f32) (main_arg8 : FVec F S32x1 .f32) (main_arg9 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) (main_arg6 : FVec F S64x32 .f32) (main_arg7 : FVec F S32 .f32) (main_arg8 : FVec F S32x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩
abbrev S1x1 : Shape := ⟨2, ![1, 1]⟩
abbrev S50000x1 : Shape := ⟨2, ![50000, 1]⟩
abbrev S5000x1 : Shape := ⟨2, ![5000, 1]⟩

abbrev nBuf : Space → Nat
  | .hbm => 102
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S50000x128, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S850000x1, .f32⟩
  | .hbm, ⟨54, _⟩ => ⟨S850000x128, .f32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x64, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x64, .f32⟩
  | .hbm, ⟨72, _⟩ => ⟨S850000x1, .f32⟩
  | .hbm, ⟨73, _⟩ => ⟨S850000x64, .f32⟩
  | .hbm, ⟨74, _⟩ => ⟨S850000x64, .f32⟩
  | .hbm, ⟨75, _⟩ => ⟨S_, .f32⟩
  | .hbm, ⟨76, _⟩ => ⟨S50000x64, .f32⟩
  | .hbm, ⟨77, _⟩ => ⟨S850000x1, .i32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S50000x32, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x32, .f32⟩
  | .hbm, ⟨91, _⟩ => ⟨S850000x1, .f32⟩
  | .hbm, ⟨92, _⟩ => ⟨S850000x32, .f32⟩
  | .hbm, ⟨93, _⟩ => ⟨S850000x32, .f32⟩
  | .hbm, ⟨94, _⟩ => ⟨S_, .f32⟩
  | .hbm, ⟨95, _⟩ => ⟨S50000x32, .f32⟩
  | .hbm, ⟨96, _⟩ => ⟨S850000x1, .i32⟩
  | .hbm, ⟨97, _⟩ => ⟨S50000x32, .f32⟩
  | .hbm, ⟨98, _⟩ => ⟨S1x32, .f32⟩
  | .hbm, ⟨99, _⟩ => ⟨S50000x32, .f32⟩
  | .hbm, ⟨100, _⟩ => ⟨S1x1, .f32⟩
  | .hbm, ⟨101, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S1x32, .f32⟩
  | .local _ .vmem, ⟨28, _⟩ => ⟨S5000x32, .f32⟩
  | .local _ .vmem, ⟨29, _⟩ => ⟨S5000x32, .f32⟩
  | .local _ .vmem, ⟨30, _⟩ => ⟨S5000x32, .f32⟩
  | .local _ .vmem, ⟨31, _⟩ => ⟨S5000x32, .f32⟩
  | .local _ .vmem, ⟨32, _⟩ => ⟨S32x1, .f32⟩
  | .local _ .vmem, ⟨33, _⟩ => ⟨S1x1, .f32⟩
  | .local _ .vmem, ⟨34, _⟩ => ⟨S5000x1, .f32⟩
  | .local _ .vmem, ⟨35, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_10 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S1_S1x1 : S1.ShapeCasts S1x1
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x32_S5000x32_1_0_0_1_n_n_wf : DotDims.WF S5000x64 S64x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x32.size a ≤ S50000x32.size a
  hwx4_2 : ∀ i : grid4.Coords, EltTy.bits .f32 = 32 ∨ (Rect.block (s := S50000x32) S5000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S50000x32.size a
  hwx5_0 : ∀ i : grid5.Coords, EltTy.bits .f32 = 32 ∨ (Rect.block (s := S50000x32) S5000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x32.size a ≤ S50000x32.size a
  hwx5_2 : ∀ i : grid5.Coords, EltTy.bits .f32 = 32 ∨ (Rect.block (s := S50000x32) S5000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S50000x32.size a
  hwx6_0 : ∀ i : grid6.Coords, EltTy.bits .f32 = 32 ∨ (Rect.block (s := S50000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x1.size a ≤ S32x1.size a
  hwx6_1 : ∀ i : grid6.Coords, EltTy.bits .f32 = 32 ∨ (Rect.block (s := S32x1) S32x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S50000x1.size a
  hwx6_3 : ∀ i : grid6.Coords, EltTy.bits .f32 = 32 ∨ (Rect.block (s := S50000x1) S5000x1.size (cc6_transform_3 i) (hinb6_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S5000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v74) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S32x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v75) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v76) S5000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩
abbrev S50000x1 : Shape := ⟨2, ![50000, 1]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S50000x128, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S850000x1, .f32⟩
  | .hbm, ⟨54, _⟩ => ⟨S850000x128, .f32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x64, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x64, .f32⟩
  | .hbm, ⟨76, _⟩ => ⟨S850000x1, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | .hbm, ⟨86, _⟩ => ⟨S_, .f32⟩
  | .hbm, ⟨87, _⟩ => ⟨S50000x64, .f32⟩
  | .hbm, ⟨88, _⟩ => ⟨S50000x64, .f32⟩
  | .hbm, ⟨89, _⟩ => ⟨S50000x32, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x32, .f32⟩
  | .hbm, ⟨99, _⟩ => ⟨S850000x1, .f32⟩
  | .hbm, ⟨100, _⟩ => ⟨S850000x32, .f32⟩
  | .hbm, ⟨101, _⟩ => ⟨S850000x32, .f32⟩
  | .hbm, ⟨102, _⟩ => ⟨S_, .f32⟩
  | .hbm, ⟨103, _⟩ => ⟨S50000x32, .f32⟩
  | .hbm, ⟨104, _⟩ => ⟨S850000x1, .i32⟩
  | .hbm, ⟨105, _⟩ => ⟨S50000x32, .f32⟩
  | .hbm, ⟨106, _⟩ => ⟨S1x32, .f32⟩
  | .hbm, ⟨107, _⟩ => ⟨S50000x32, .f32⟩
  | .hbm, ⟨108, _⟩ => ⟨S50000x32, .f32⟩
  | .hbm, ⟨109, _⟩ => ⟨S_, .f32⟩
  | .hbm, ⟨110, _⟩ => ⟨S50000x32, .f32⟩
  | .hbm, ⟨111, _⟩ => ⟨S50000x32, .f32⟩
  | .hbm, ⟨112, _⟩ => ⟨S50000x1, .f32⟩
  | .hbm, ⟨113, _⟩ => ⟨S1x1, .f32⟩
  | .hbm, ⟨114, _⟩ => ⟨S50000x1, .f32⟩
  | .hbm, ⟨115, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_c_10 : Ref sig .tc := ⟨.hbm, 90, rfl⟩
abbrev main_v64 : Ref sig .tc := ⟨.hbm, 91, rfl⟩
abbrev main_v65 : Ref sig .tc := ⟨.hbm, 92, rfl⟩
abbrev main_c_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_12 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_call2_cst : Ref sig .tc := ⟨.hbm, 109, rfl⟩
abbrev main_call2_v0 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x1_S50000x1_1_0_0_1_n_n_wf : DotDims.WF S50000x32 S32x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf

class Facts : Prop extends Facts₀ where

variable [Facts]
-- ==== Proof.KernelRun.lean ====
/-
  The idealized kernel's whole run with its RESULT named. @main is twelve segments — five stretches of host
  operations and seven launches — and the buffer contents at each segment boundary are a fold from the launch memory:
  a stretch applies its operations, a launch replaces its arrays by what its write-backs leave. Every weakly fair execution
  terminates, nothing faulting, in a state whose unscoped buffers hold the last boundary's contents; read at the result
  buffer that is the fold's value there, and read at an argument it is the argument as launched.
-/
import proofs.«161257_j64467459113444_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last segment
    boundary's contents and every argument as launched. -/
theorem run_result : θ_run defs (onTc (τ := τ) (main (F := F))) ⟨m, fun _ => 0, ρ⟩ (fun r => ∀ c : Dev nD,
      r.2.mem ((c.tc : Thread nD τ).loc main_v76) = W12 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v76 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.Gen

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.LibDenseLayers.lean ====
/-
  Dense layers of a network read entry by entry on the extended reals, generic in the row count `R` and the widths `K`, `N`,
  each as ONE whole-array function and in the two spellings a program can give it:
  * `rowsTimes x w`: entry `(p, q)` is the sum over `k` of `x (p, k) · w (k, q)` — a vector unit's `matmul` of operands rounded
    to bfloat16 (the identity on the extended reals) into a zero accumulator (`vec_mm_apply`, `vec_mm_cast_apply`) and the host's
    `dot_general` of a whole matrix (`host_mm`);
  * `biasFloor z a b`: entry `(p, q)` is `max (a (p, q) + b (0, q)) z`, the bias laid out as one row — a vector unit's sum with the
    row repeated down the rows and maximum with a splat (`vec_bias_floor_apply`), and the host's two-step broadcast of a bias
    vector followed by a maximum with a broadcast constant (`host_bias_floor`);
  * `rowsTimesPlus x w b`: `rowsTimes x w` plus the bias row (`vec_mm_plus_apply`, `host_mm_plus`).
  A row block of a matrix product is the product of the row block (`rowsTimes` reads only row `p` of `x`), which is why a
  product computed block of rows by block of rows is the whole product. No finiteness is needed: both spellings are the same
  sums of the same products, term by term.
-/
import Idealize.ShloMosaic.Lib.ValueIdx
import Idealize.ShloMosaic.Lib.ValueLayout
import Idealize.ShloMosaic.Lib.Pipeline.Value
import Idealize.ShloMosaic.PureOps.Ideal.Laws
import proofs.«161257_j64467459113444_1_alg».proof.Proof.LibMlpRows

noncomputable section

namespace Cert.LibDense

open Idealize.ShloMosaic Idealize.ShloMosaic.ValueIdx
open scoped BigOperators

/-- The matrix product: entry `(p, q)` is row `p` of `x` times column `q` of `w`. -/
def rowsTimes {R K N : ℕ} (x : (⟨2, ![R, K]⟩ : Shape).Idx → EReal) (w : (⟨2, ![K, N]⟩ : Shape).Idx → EReal) :
    (⟨2, ![R, N]⟩ : Shape).Idx → EReal := fun i => ∑ k : Fin K, x (ix2 (i 0) k) * w (ix2 k (i 1))

/-- Add the bias row to every row and floor every entry at `z`. -/
def biasFloor {R N : ℕ} (z : EReal) (a : (⟨2, ![R, N]⟩ : Shape).Idx → EReal) (b : (⟨2, ![1, N]⟩ : Shape).Idx → EReal) :
    (⟨2, ![R, N]⟩ : Shape).Idx → EReal := fun i => max (a i + b (ix2 (0 : Fin 1) (i 1))) z

/-- The matrix product with the bias row added to every row. -/
def rowsTimesPlus {R K N : ℕ} (x : (⟨2, ![R, K]⟩ : Shape).Idx → EReal) (w : (⟨2, ![K, N]⟩ : Shape).Idx → EReal)
    (b : (⟨2, ![1, N]⟩ : Shape).Idx → EReal) : (⟨2, ![R, N]⟩ : Shape).Idx → EReal :=
  fun i => rowsTimes x w i + b (ix2 (0 : Fin 1) (i 1))

theorem rowsTimes_ix2 {R K N : ℕ} (x : (⟨2, ![R, K]⟩ : Shape).Idx → EReal) (w : (⟨2, ![K, N]⟩ : Shape).Idx → EReal) (p : Fin R) (q : Fin N) :
    rowsTimes x w (ix2 p q) = ∑ k : Fin K, x (ix2 p k) * w (ix2 k q) := rfl

theorem biasFloor_ix2 {R N : ℕ} (z : EReal) (a : (⟨2, ![R, N]⟩ : Shape).Idx → EReal) (b : (⟨2, ![1, N]⟩ : Shape).Idx → EReal) (p : Fin R) (q : Fin N) :
    biasFloor z a b (ix2 p q) = max (a (ix2 p q) + b (ix2 (0 : Fin 1) q)) z := rfl

theorem rowsTimesPlus_ix2 {R K N : ℕ} (x : (⟨2, ![R, K]⟩ : Shape).Idx → EReal) (w : (⟨2, ![K, N]⟩ : Shape).Idx → EReal)
    (b : (⟨2, ![1, N]⟩ : Shape).Idx → EReal) (p : Fin R) (q : Fin N) :
    rowsTimesPlus x w b (ix2 p q) = (∑ k : Fin K, x (ix2 p k) * w (ix2 k q)) + b (ix2 (0 : Fin 1) q) := rfl

/-! ## The vector unit's spellings, at an entry -/

/-- Operands rounded to bfloat16 and multiplied into a zero accumulator: the row's product with the column. -/
theorem vec_mm_apply {R K N : ℕ} (d : DotDims ⟨2, ![R, K]⟩ ⟨2, ![K, N]⟩ ⟨2, ![R, N]⟩) (hd : d = DotDims.plain R K N)
    (x : FVec Ideal ⟨2, ![R, K]⟩ .f32) (w : FVec Ideal ⟨2, ![K, N]⟩ .f32)
    (ht : FTy.bf16.bits < FTy.f32.bits) (p : Fin R) (q : Fin N) :
    matmul d none (truncf .bf16 x ht) (truncf .bf16 w ht) (constant ⟨2, ![R, N]⟩ .f32 0x00000000#32) (ix2 p q)
      = ∑ k : Fin K, x (ix2 p k) * w (ix2 k q) := by
  subst hd
  simp only [matmul, truncf_apply, Cert.LibMlp.matmul_zero_plain]

/-- The same with the left operand first cast to its own shape. -/
theorem vec_mm_cast_apply {R K N : ℕ} (d : DotDims ⟨2, ![R, K]⟩ ⟨2, ![K, N]⟩ ⟨2, ![R, N]⟩) (hd : d = DotDims.plain R K N)
    (x : FVec Ideal ⟨2, ![R, K]⟩ .f32) (w : FVec Ideal ⟨2, ![K, N]⟩ .f32)
    (hx : (⟨2, ![R, K]⟩ : Shape).ShapeCasts ⟨2, ![R, K]⟩)
    (ht : FTy.bf16.bits < FTy.f32.bits) (p : Fin R) (q : Fin N) :
    matmul d none (truncf .bf16 (shapeCast ⟨2, ![R, K]⟩ x hx) ht) (truncf .bf16 w ht) (constant ⟨2, ![R, N]⟩ .f32 0x00000000#32) (ix2 p q)
      = ∑ k : Fin K, x (ix2 p k) * w (ix2 k q) := by
  rw [shapeCast_self]
  exact vec_mm_apply d hd x w ht p q

/-- A sum with the bias row repeated down the rows, then the maximum with the zero splat. -/
theorem vec_bias_floor_apply {R N : ℕ} (a : FVec Ideal ⟨2, ![R, N]⟩ .f32) (b : FVec Ideal ⟨2, ![1, N]⟩ .f32)
    (ha : (⟨2, ![R, N]⟩ : Shape).ShapeCasts ⟨2, ![R, N]⟩) (hb : (⟨2, ![1, N]⟩ : Shape).ShapeCasts ⟨2, ![1, N]⟩)
    (hB : (⟨2, ![1, N]⟩ : Shape).Broadcasts ⟨2, ![R, N]⟩) (p : Fin R) (q : Fin N) :
    maximumf (addf (shapeCast ⟨2, ![R, N]⟩ a ha) (broadcastTo ⟨2, ![R, N]⟩ (shapeCast ⟨2, ![1, N]⟩ b hb) hB))
        (broadcast ⟨2, ![R, N]⟩ (Scalar.ofBits .f32 0x00000000#32)) (ix2 p q)
      = max (a (ix2 p q) + b (ix2 (0 : Fin 1) q)) (Ideal.ofBits .f32 0x00000000#32) := by
  simp only [maximumf_apply, addf_apply, shapeCast_self, broadcastTo_1b_ab_apply, broadcast_apply]
  rfl

/-- The product into a zero accumulator plus the bias row repeated down the rows. -/
theorem vec_mm_plus_apply {R K N : ℕ} (d : DotDims ⟨2, ![R, K]⟩ ⟨2, ![K, N]⟩ ⟨2, ![R, N]⟩) (hd : d = DotDims.plain R K N)
    (x : FVec Ideal ⟨2, ![R, K]⟩ .f32) (w : FVec Ideal ⟨2, ![K, N]⟩ .f32) (b : FVec Ideal ⟨2, ![1, N]⟩ .f32)
    (hx : (⟨2, ![R, K]⟩ : Shape).ShapeCasts ⟨2, ![R, K]⟩) (hb : (⟨2, ![1, N]⟩ : Shape).ShapeCasts ⟨2, ![1, N]⟩)
    (hB : (⟨2, ![1, N]⟩ : Shape).Broadcasts ⟨2, ![R, N]⟩)
    (ht : FTy.bf16.bits < FTy.f32.bits) (p : Fin R) (q : Fin N) :
    addf (matmul d none (truncf .bf16 (shapeCast ⟨2, ![R, K]⟩ x hx) ht) (truncf .bf16 w ht) (constant ⟨2, ![R, N]⟩ .f32 0x00000000#32))
        (broadcastTo ⟨2, ![R, N]⟩ (shapeCast ⟨2, ![1, N]⟩ b hb) hB) (ix2 p q)
      = (∑ k : Fin K, x (ix2 p k) * w (ix2 k q)) + b (ix2 (0 : Fin 1) q) := by
  rw [addf_apply, vec_mm_cast_apply d hd x w hx ht p q, broadcastTo_1b_ab_apply, shapeCast_self]

/-! ## The host's spellings, as whole arrays -/

/-- The host's `dot_general` with the plain dimension numbers is the matrix product. -/
theorem host_mm {R K N : ℕ} (d : DotDims ⟨2, ![R, K]⟩ ⟨2, ![K, N]⟩ ⟨2, ![R, N]⟩) (hd : d = DotDims.plain R K N)
    (x : FVec Ideal ⟨2, ![R, K]⟩ .f32) (w : FVec Ideal ⟨2, ![K, N]⟩ .f32) :
    Host.dotGeneral d none x w = rowsTimes x w := by
  subst hd
  funext i
  obtain ⟨p, q, rfl⟩ : ∃ (p : Fin R) (q : Fin N), i = ix2 p q := ⟨i 0, i 1, eq_ix2 i⟩
  rw [rowsTimes_ix2]
  simp only [Host.dotGeneral, Cert.LibMlp.dotGeneral_plain]

/-- A bias vector broadcast to one row and then down the rows reads, at `(p, q)`, its entry `q`. -/
theorem bias_rows_apply {R N : ℕ} (b : FVec Ideal ⟨1, ![N]⟩ .f32)
    (hb1 : (⟨1, ![N]⟩ : Shape).BroadcastsInDim ⟨2, ![1, N]⟩ ![1]) (hB1 : (⟨2, ![1, N]⟩ : Shape).BroadcastsInDim ⟨2, ![R, N]⟩ ![0, 1])
    (p : Fin R) (q : Fin N) :
    broadcastInDim ⟨2, ![R, N]⟩ ![0, 1] hB1 (broadcastInDim ⟨2, ![1, N]⟩ ![1] hb1 b) (ix2 p q) = b (ix1 q) := by
  rw [broadcastInDim_apply ![0, 1] hB1 _ (ix2 p q) (ix2 (0 : Fin 1) q) (fun a => by
    match a with
    | ⟨0, _⟩ => rfl
    | ⟨1, _⟩ => show q.val = if N = 1 then 0 else q.val; split <;> [(have := q.isLt; omega); rfl])]
  exact broadcastInDim_apply ![1] hb1 _ (ix2 (0 : Fin 1) q) (ix1 q) (fun a => by
    match a with
    | ⟨0, _⟩ => show q.val = if N = 1 then 0 else q.val; split <;> [(have := q.isLt; omega); rfl])

/-- The host's bias add and ReLU is `biasFloor` of the bias vector laid out as one row. -/
theorem host_bias_floor {R N : ℕ} (a : FVec Ideal ⟨2, ![R, N]⟩ .f32) (b : FVec Ideal ⟨1, ![N]⟩ .f32)
    (hb1 : (⟨1, ![N]⟩ : Shape).BroadcastsInDim ⟨2, ![1, N]⟩ ![1]) (hB1 : (⟨2, ![1, N]⟩ : Shape).BroadcastsInDim ⟨2, ![R, N]⟩ ![0, 1])
    (hz : (⟨0, ![]⟩ : Shape).BroadcastsInDim ⟨2, ![R, N]⟩ ![]) (hc : (⟨1, ![N]⟩ : Shape).ShapeCasts ⟨2, ![1, N]⟩) :
    maximumf (addf a (broadcastInDim ⟨2, ![R, N]⟩ ![0, 1] hB1 (broadcastInDim ⟨2, ![1, N]⟩ ![1] hb1 b)))
        (broadcastInDim ⟨2, ![R, N]⟩ ![] hz (constant (F := Ideal) ⟨0, ![]⟩ .f32 0x00000000#32))
      = biasFloor (Ideal.ofBits .f32 0x00000000#32) a (shapeCast ⟨2, ![1, N]⟩ b hc) := by
  funext i
  obtain ⟨p, q, rfl⟩ : ∃ (p : Fin R) (q : Fin N), i = ix2 p q := ⟨i 0, i 1, eq_ix2 i⟩
  have zero : broadcastInDim ⟨2, ![R, N]⟩ ![] hz (constant (F := Ideal) ⟨0, ![]⟩ .f32 0x00000000#32) (ix2 p q) = Ideal.ofBits .f32 0x00000000#32 :=
    broadcastInDim_apply ![] hz _ (ix2 p q) ix0 (fun a => a.elim0)
  rw [biasFloor_ix2, maximumf_apply, addf_apply, bias_rows_apply, zero, shapeCast_a_1a_apply]

/-- The host's `dot_general` plus a broadcast bias vector is `rowsTimesPlus` of the bias laid out as one row. -/
theorem host_mm_plus {R K N : ℕ} (d : DotDims ⟨2, ![R, K]⟩ ⟨2, ![K, N]⟩ ⟨2, ![R, N]⟩) (hd : d = DotDims.plain R K N)
    (x : FVec Ideal ⟨2, ![R, K]⟩ .f32) (w : FVec Ideal ⟨2, ![K, N]⟩ .f32) (b : FVec Ideal ⟨1, ![N]⟩ .f32)
    (hb1 : (⟨1, ![N]⟩ : Shape).BroadcastsInDim ⟨2, ![1, N]⟩ ![1]) (hB1 : (⟨2, ![1, N]⟩ : Shape).BroadcastsInDim ⟨2, ![R, N]⟩ ![0, 1])
    (hc : (⟨1, ![N]⟩ : Shape).ShapeCasts ⟨2, ![1, N]⟩) :
    addf (Host.dotGeneral d none x w) (broadcastInDim ⟨2, ![R, N]⟩ ![0, 1] hB1 (broadcastInDim ⟨2, ![1, N]⟩ ![1] hb1 b))
      = rowsTimesPlus x w (shapeCast ⟨2, ![1, N]⟩ b hc) := by
  rw [host_mm d hd]
  funext i
  obtain ⟨p, q, rfl⟩ : ∃ (p : Fin R) (q : Fin N), i = ix2 p q := ⟨i 0, i 1, eq_ix2 i⟩
  rw [addf_apply, bias_rows_apply, rowsTimesPlus_ix2, shapeCast_a_1a_apply, rowsTimes_ix2]

end Cert.LibDense

end
-- ==== Proof.Project1.lean ====
/-
  The first layer's projection: launch 0 multiplies the 50000×128 activations by the 128×128 weights, ten blocks of 5000 rows
  at a time. A block of rows of a matrix product is the product of that block of rows with the whole weight matrix, and the
  ten blocks tile the rows, so whatever the buffers hold when the launch is entered, the result array ends as the whole
  product `rowsTimes` of the two operand arrays.
-/
import proofs.«161257_j64467459113444_1_alg».proof.Proof.Gen.KernelIdeal.Frame
import proofs.«161257_j64467459113444_1_alg».proof.Proof.LibDenseLayers
import Idealize.ShloMosaic.Lib.Pipeline.Value

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibDense
open scoped BigOperators

variable (V : (c : Dev nD) → (b : Ref sig .tc) → Buf (Elt Ideal) ((c : Thread nD τ).loc b))

theorem zero2_0 : (![0, 0] : Fin 2 → Nat) = fun _ => 0 := funext fun a => by fin_cases a <;> rfl

/-- The block index maps over the ten grid points: point `t` takes rows `[5000 t, 5000 t + 5000)` of the activations and of the
    result, and the whole weight matrix. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's arithmetic at an entry: the block's row times the weights' column. -/
theorem pay0_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact vec_mm_apply dot_S5000x128_S128x128_S5000x128_1_0_0_1_n_n rfl x0 x1 bitsLt_bf16_f32 p q

/-- An entry of the body's result is the entry of the whole product whose row is the block row's place in the array. -/
theorem rows_block0 (X : S50000x128.Idx → EReal) (Wt : S128x128.Idx → EReal) (x0 : Vec Ideal S5000x128 .f32) (x1 : Vec Ideal S128x128 .f32)
    (j : S5000x128.Idx) (i : S50000x128.Idx)
    (hx : ∀ k : Fin 128, x0 (ix2 (j 0) k) = X (ix2 (i 0) k)) (hw : ∀ k : Fin 128, x1 (ix2 k (j 1)) = Wt (ix2 k (i 1))) :
    k0_pay1 x0 x1 j = rowsTimes X Wt i := by
  have h := (congrArg (k0_pay1 x0 x1) (eq_ix2 j)).trans (pay0_apply x0 x1 (j 0) (j 1))
  rw [h]
  unfold rowsTimes
  exact Finset.sum_congr rfl fun k _ => by rw [hx k, hw k]

/-- What point `t` writes back is block `t` of the whole product of the arrays as the launch finds them. -/
theorem flushed0 (c : Dev nD) (t : Fin cfg0.N) :
    (dat0 V c).flushed 2 t = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero zero2_0]
  simp only [View.ld_unit_zero (S := S5000x128) zero2_0, View.ld_unit_zero (S := S128x128) zero2_0]
  obtain ⟨e0, e1, e2, e3, e4, e5⟩ := blocks0 t
  funext j
  refine rows_block0 (V c main_arg0) (V c main_arg2) (iblk0 V c 0 t) (iblk0 V c 1 t) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg2 (((cfg0.win 1).blk t).view.emb (ix2 k (j 1))) = V c main_arg2 (ix2 k ((((cfg0.win 2).blk t).view.emb j) 1))
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Row `r` of the result is written by point `r / 5000`: the ten blocks tile the array. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  have ht : (i 0).val / 5000 < cfg0.N := by show (i 0).val / 5000 < grid0.N; omega
  obtain ⟨e0, e1, e2, e3, e4, e5⟩ := blocks0 ⟨(i 0).val / 5000, ht⟩
  refine ⟨⟨(i 0).val / 5000, ht⟩, flush0_2 _, ?_⟩
  rw [mem_blk0]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; simp only [] at e4; omega
  | ⟨1, _⟩ => show win0_2.index ⟨(i 0).val / 5000, ht⟩ (1 : Fin 2) * 128 ≤ (i 1).val ∧ (i 1).val < win0_2.index ⟨(i 0).val / 5000, ht⟩ (1 : Fin 2) * 128 + 128; omega

/-- The result array after the launch is the whole product of the operand arrays as the launch finds them. -/
theorem final0 (c : Dev nD) : (dat0 V c).arrAt 2 cfg0.N = rowsTimes (V c main_arg0) (V c main_arg2) :=
  (dat0 V c).arrAt_eq_of_cover 2 _ (fun t _ => flushed0 V c t) cover0

end Cert.KernelIdeal.Layers

end
-- ==== Proof.BiasRelu1.lean ====
/-
  The first layer's bias and ReLU: launch 1 adds the bias row to every row of the aggregated 50000×128 array and floors
  every entry at zero, ten blocks of 5000 rows at a time. The operation is entrywise in the array and reads the bias at the
  entry's column only, and the ten blocks tile the rows, so the result array ends as `biasFloor` of the two operand arrays as
  the launch finds them.
-/
import proofs.«161257_j64467459113444_1_alg».proof.Proof.Gen.KernelIdeal.Frame
import proofs.«161257_j64467459113444_1_alg».proof.Proof.LibDenseLayers
import Idealize.ShloMosaic.Lib.Pipeline.Value

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibDense
open scoped BigOperators

variable (V : (c : Dev nD) → (b : Ref sig .tc) → Buf (Elt Ideal) ((c : Thread nD τ).loc b))

theorem zero2_1 : (![0, 0] : Fin 2 → Nat) = fun _ => 0 := funext fun a => by fin_cases a <;> rfl

/-- The block index maps over the ten grid points: point `t` takes rows `[5000 t, 5000 t + 5000)` of the aggregated array and of
    the result, and the whole bias row. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's arithmetic at an entry: the entry plus its column's bias, floored at zero. -/
theorem pay1_apply (x0 : Vec Ideal S5000x128 .f32) (x1 : Vec Ideal S1x128 .f32) (p : Fin 5000) (q : Fin 128) :
    k1_pay1 x0 x1 (ix2 p q) = max (x0 (ix2 p q) + x1 (ix2 (0 : Fin 1) q)) (Ideal.ofBits .f32 0x00000000#32) := by
  unfold k1_pay1
  exact vec_bias_floor_apply x0 x1 shapeCasts_S5000x128_S5000x128 shapeCasts_S1x128_S1x128 broadcasts_S1x128_S5000x128 p q

/-- An entry of the body's result is the entry of `biasFloor` of the whole arrays at the block entry's place in the array. -/
theorem floor_block1 (A : S50000x128.Idx → EReal) (B : S1x128.Idx → EReal) (x0 : Vec Ideal S5000x128 .f32) (x1 : Vec Ideal S1x128 .f32)
    (j : S5000x128.Idx) (i : S50000x128.Idx)
    (ha : x0 j = A i) (hb : x1 (ix2 (0 : Fin 1) (j 1)) = B (ix2 (0 : Fin 1) (i 1))) :
    k1_pay1 x0 x1 j = biasFloor (Ideal.ofBits .f32 0x00000000#32) A B i := by
  have h := (congrArg (k1_pay1 x0 x1) (eq_ix2 j)).trans (pay1_apply x0 x1 (j 0) (j 1))
  refine h.trans ?_
  show max (x0 (ix2 (j 0) (j 1)) + x1 (ix2 (0 : Fin 1) (j 1))) (Ideal.ofBits .f32 0x00000000#32) = max (A i + B (ix2 (0 : Fin 1) (i 1))) (Ideal.ofBits .f32 0x00000000#32)
  have ha' : x0 (ix2 (j 0) (j 1)) = A i := (congrArg x0 (eq_ix2 j).symm).trans ha
  exact congrArg (fun v => max v (Ideal.ofBits .f32 0x00000000#32)) (congrArg₂ (· + ·) ha' hb)

/-- What point `t` writes back is block `t` of `biasFloor` of the arrays as the launch finds them. -/
theorem flushed1 (c : Dev nD) (t : Fin cfg1.N) :
    (dat1 V c).flushed 2 t = ((cfg1.win 2).blk t).view.read (Elt Ideal) (biasFloor (Ideal.ofBits .f32 0x00000000#32) (V c main_v40) (V c main_v41)) := by
  show (cfg1.win 2).cut (grid1.coords t) ((dat1 V c).after 2 t) = _
  rw [after1_2]
  unfold out1_2
  rw [View.canon_unit_zero zero2_1]
  simp only [View.ld_unit_zero (S := S5000x128) zero2_1, View.ld_unit_zero (S := S1x128) zero2_1]
  obtain ⟨e0, e1, e2, e3, e4, e5⟩ := blocks1 t
  funext j
  refine floor_block1 (V c main_v40) (V c main_v41) (iblk1 V c 0 t) (iblk1 V c 1 t) j (((cfg1.win 2).blk t).view.emb j) ?_ ?_
  · show V c main_v40 (((cfg1.win 0).blk t).view.emb j) = V c main_v40 (((cfg1.win 2).blk t).view.emb j)
    refine congrArg (V c main_v40) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · show V c main_v41 (((cfg1.win 1).blk t).view.emb (ix2 (0 : Fin 1) (j 1))) = V c main_v41 (ix2 (0 : Fin 1) ((((cfg1.win 2).blk t).view.emb j) 1))
    refine congrArg (V c main_v41) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- An index of the result array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v42).slice (win1_2.rect t)).set ↔ _
  rw [View.set_slice_whole, Rect.mem_set_unit]
  exact Iff.rfl

/-- Row `r` of the result is written by point `r / 5000`: the ten blocks tile the array. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  have ht : (i 0).val / 5000 < cfg1.N := by show (i 0).val / 5000 < grid1.N; omega
  obtain ⟨e0, e1, e2, e3, e4, e5⟩ := blocks1 ⟨(i 0).val / 5000, ht⟩
  refine ⟨⟨(i 0).val / 5000, ht⟩, flush1_2 _, ?_⟩
  rw [mem_blk1]
  intro a
  match a with
  | ⟨0, _⟩ => show win1_2.index ⟨(i 0).val / 5000, ht⟩ (0 : Fin 2) * 5000 ≤ (i 0).val ∧ (i 0).val < win1_2.index ⟨(i 0).val / 5000, ht⟩ (0 : Fin 2) * 5000 + 5000; simp only [] at e4; omega
  | ⟨1, _⟩ => show win1_2.index ⟨(i 0).val / 5000, ht⟩ (1 : Fin 2) * 128 ≤ (i 1).val ∧ (i 1).val < win1_2.index ⟨(i 0).val / 5000, ht⟩ (1 : Fin 2) * 128 + 128; omega

/-- The result array after the launch is `biasFloor` of the operand arrays as the launch finds them. -/
theorem final1 (c : Dev nD) : (dat1 V c).arrAt 2 cfg1.N = biasFloor (Ideal.ofBits .f32 0x00000000#32) (V c main_v40) (V c main_v41) :=
  (dat1 V c).arrAt_eq_of_cover 2 _ (fun t _ => flushed1 V c t) cover1

end Cert.KernelIdeal.Layers

end
-- ==== Proof.Project2.lean ====
/-
  The second layer's projection: launch 2 multiplies the 50000×128 activations by the 128×64 weights, ten blocks of 5000 rows
  at a time. A block of rows of a matrix product is the product of that block of rows with the whole weight matrix, and the
  ten blocks tile the rows, so whatever the buffers hold when the launch is entered, the result array ends as the whole
  product `rowsTimes` of the two operand arrays.
-/
import proofs.«161257_j64467459113444_1_alg».proof.Proof.Gen.KernelIdeal.Frame
import proofs.«161257_j64467459113444_1_alg».proof.Proof.LibDenseLayers
import Idealize.ShloMosaic.Lib.Pipeline.Value

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibDense
open scoped BigOperators

variable (V : (c : Dev nD) → (b : Ref sig .tc) → Buf (Elt Ideal) ((c : Thread nD τ).loc b))

theorem zero2_2 : (![0, 0] : Fin 2 → Nat) = fun _ => 0 := funext fun a => by fin_cases a <;> rfl

/-- The block index maps over the ten grid points: point `t` takes rows `[5000 t, 5000 t + 5000)` of the activations and of the
    result, and the whole weight matrix. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's arithmetic at an entry: the block's row times the weights' column. -/
theorem pay2_apply (x0 : Vec Ideal S5000x128 .f32) (x1 : Vec Ideal S128x64 .f32) (p : Fin 5000) (q : Fin 64) :
    k2_pay1 x0 x1 (ix2 p q) = ∑ k : Fin 128, x0 (ix2 p k) * x1 (ix2 k q) := by
  unfold k2_pay1
  exact vec_mm_cast_apply dot_S5000x128_S128x64_S5000x64_1_0_0_1_n_n rfl x0 x1 shapeCasts_S5000x128_S5000x128 bitsLt_bf16_f32 p q

/-- An entry of the body's result is the entry of the whole product whose row is the block row's place in the array. -/
theorem rows_block2 (X : S50000x128.Idx → EReal) (Wt : S128x64.Idx → EReal) (x0 : Vec Ideal S5000x128 .f32) (x1 : Vec Ideal S128x64 .f32)
    (j : S5000x64.Idx) (i : S50000x64.Idx)
    (hx : ∀ k : Fin 128, x0 (ix2 (j 0) k) = X (ix2 (i 0) k)) (hw : ∀ k : Fin 128, x1 (ix2 k (j 1)) = Wt (ix2 k (i 1))) :
    k2_pay1 x0 x1 j = rowsTimes X Wt i := by
  have h := (congrArg (k2_pay1 x0 x1) (eq_ix2 j)).trans (pay2_apply x0 x1 (j 0) (j 1))
  rw [h]
  unfold rowsTimes
  exact Finset.sum_congr rfl fun k _ => by rw [hx k, hw k]

/-- What point `t` writes back is block `t` of the whole product of the arrays as the launch finds them. -/
theorem flushed2 (c : Dev nD) (t : Fin cfg2.N) :
    (dat2 V c).flushed 2 t = ((cfg2.win 2).blk t).view.read (Elt Ideal) (rowsTimes (V c main_v42) (V c main_arg4)) := by
  show (cfg2.win 2).cut (grid2.coords t) ((dat2 V c).after 2 t) = _
  rw [after2_2]
  unfold out2_2
  rw [View.canon_unit_zero zero2_2]
  simp only [View.ld_unit_zero (S := S5000x128) zero2_2, View.ld_unit_zero (S := S128x64) zero2_2]
  obtain ⟨e0, e1, e2, e3, e4, e5⟩ := blocks2 t
  funext j
  refine rows_block2 (V c main_v42) (V c main_arg4) (iblk2 V c 0 t) (iblk2 V c 1 t) j (((cfg2.win 2).blk t).view.emb j) (fun k => ?_) (fun k => ?_)
  · show V c main_v42 (((cfg2.win 0).blk t).view.emb (ix2 (j 0) k)) = V c main_v42 (ix2 ((((cfg2.win 2).blk t).view.emb j) 0) k)
    refine congrArg (V c main_v42) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_arg4 (((cfg2.win 1).blk t).view.emb (ix2 k (j 1))) = V c main_arg4 (ix2 k ((((cfg2.win 2).blk t).view.emb j) 1))
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega

/-- An index of the result array is in point `t`'s block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v43).slice (win2_2.rect t)).set ↔ _
  rw [View.set_slice_whole, Rect.mem_set_unit]
  exact Iff.rfl

/-- Row `r` of the result is written by point `r / 5000`: the ten blocks tile the array. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : grid2.N = 10 := N_2
  have ht : (i 0).val / 5000 < cfg2.N := by show (i 0).val / 5000 < grid2.N; omega
  obtain ⟨e0, e1, e2, e3, e4, e5⟩ := blocks2 ⟨(i 0).val / 5000, ht⟩
  refine ⟨⟨(i 0).val / 5000, ht⟩, flush2_2 _, ?_⟩
  rw [mem_blk2]
  intro a
  match a with
  | ⟨0, _⟩ => show win2_2.index ⟨(i 0).val / 5000, ht⟩ (0 : Fin 2) * 5000 ≤ (i 0).val ∧ (i 0).val < win2_2.index ⟨(i 0).val / 5000, ht⟩ (0 : Fin 2) * 5000 + 5000; simp only [] at e4; omega
  | ⟨1, _⟩ => show win2_2.index ⟨(i 0).val / 5000, ht⟩ (1 : Fin 2) * 64 ≤ (i 1).val ∧ (i 1).val < win2_2.index ⟨(i 0).val / 5000, ht⟩ (1 : Fin 2) * 64 + 64; omega

/-- The result array after the launch is the whole product of the operand arrays as the launch finds them. -/
theorem final2 (c : Dev nD) : (dat2 V c).arrAt 2 cfg2.N = rowsTimes (V c main_v42) (V c main_arg4) :=
  (dat2 V c).arrAt_eq_of_cover 2 _ (fun t _ => flushed2 V c t) cover2

end Cert.KernelIdeal.Layers

end
-- ==== Proof.BiasRelu2.lean ====
/-
  The second layer's bias and ReLU: launch 3 adds the bias row to every row of the aggregated 50000×64 array and floors
  every entry at zero, ten blocks of 5000 rows at a time. The operation is entrywise in the array and reads the bias at the
  entry's column only, and the ten blocks tile the rows, so the result array ends as `biasFloor` of the two operand arrays as
  the launch finds them.
-/
import proofs.«161257_j64467459113444_1_alg».proof.Proof.Gen.KernelIdeal.Frame
import proofs.«161257_j64467459113444_1_alg».proof.Proof.LibDenseLayers
import Idealize.ShloMosaic.Lib.Pipeline.Value

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibDense
open scoped BigOperators

variable (V : (c : Dev nD) → (b : Ref sig .tc) → Buf (Elt Ideal) ((c : Thread nD τ).loc b))

theorem zero2_3 : (![0, 0] : Fin 2 → Nat) = fun _ => 0 := funext fun a => by fin_cases a <;> rfl

/-- The block index maps over the ten grid points: point `t` takes rows `[5000 t, 5000 t + 5000)` of the aggregated array and of
    the result, and the whole bias row. -/
theorem blocks3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's arithmetic at an entry: the entry plus its column's bias, floored at zero. -/
theorem pay3_apply (x0 : Vec Ideal S5000x64 .f32) (x1 : Vec Ideal S1x64 .f32) (p : Fin 5000) (q : Fin 64) :
    k3_pay1 x0 x1 (ix2 p q) = max (x0 (ix2 p q) + x1 (ix2 (0 : Fin 1) q)) (Ideal.ofBits .f32 0x00000000#32) := by
  unfold k3_pay1
  exact vec_bias_floor_apply x0 x1 shapeCasts_S5000x64_S5000x64 shapeCasts_S1x64_S1x64 broadcasts_S1x64_S5000x64 p q

/-- An entry of the body's result is the entry of `biasFloor` of the whole arrays at the block entry's place in the array. -/
theorem floor_block3 (A : S50000x64.Idx → EReal) (B : S1x64.Idx → EReal) (x0 : Vec Ideal S5000x64 .f32) (x1 : Vec Ideal S1x64 .f32)
    (j : S5000x64.Idx) (i : S50000x64.Idx)
    (ha : x0 j = A i) (hb : x1 (ix2 (0 : Fin 1) (j 1)) = B (ix2 (0 : Fin 1) (i 1))) :
    k3_pay1 x0 x1 j = biasFloor (Ideal.ofBits .f32 0x00000000#32) A B i := by
  have h := (congrArg (k3_pay1 x0 x1) (eq_ix2 j)).trans (pay3_apply x0 x1 (j 0) (j 1))
  refine h.trans ?_
  show max (x0 (ix2 (j 0) (j 1)) + x1 (ix2 (0 : Fin 1) (j 1))) (Ideal.ofBits .f32 0x00000000#32) = max (A i + B (ix2 (0 : Fin 1) (i 1))) (Ideal.ofBits .f32 0x00000000#32)
  have ha' : x0 (ix2 (j 0) (j 1)) = A i := (congrArg x0 (eq_ix2 j).symm).trans ha
  exact congrArg (fun v => max v (Ideal.ofBits .f32 0x00000000#32)) (congrArg₂ (· + ·) ha' hb)

/-- What point `t` writes back is block `t` of `biasFloor` of the arrays as the launch finds them. -/
theorem flushed3 (c : Dev nD) (t : Fin cfg3.N) :
    (dat3 V c).flushed 2 t = ((cfg3.win 2).blk t).view.read (Elt Ideal) (biasFloor (Ideal.ofBits .f32 0x00000000#32) (V c main_v56) (V c main_v57)) := by
  show (cfg3.win 2).cut (grid3.coords t) ((dat3 V c).after 2 t) = _
  rw [after3_2]
  unfold out3_2
  rw [View.canon_unit_zero zero2_3]
  simp only [View.ld_unit_zero (S := S5000x64) zero2_3, View.ld_unit_zero (S := S1x64) zero2_3]
  obtain ⟨e0, e1, e2, e3, e4, e5⟩ := blocks3 t
  funext j
  refine floor_block3 (V c main_v56) (V c main_v57) (iblk3 V c 0 t) (iblk3 V c 1 t) j (((cfg3.win 2).blk t).view.emb j) ?_ ?_
  · show V c main_v56 (((cfg3.win 0).blk t).view.emb j) = V c main_v56 (((cfg3.win 2).blk t).view.emb j)
    refine congrArg (V c main_v56) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  · show V c main_v57 (((cfg3.win 1).blk t).view.emb (ix2 (0 : Fin 1) (j 1))) = V c main_v57 (ix2 (0 : Fin 1) ((((cfg3.win 2).blk t).view.emb j) 1))
    refine congrArg (V c main_v57) (funext fun a => Fin.ext ?_)
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega

/-- An index of the result array is in point `t`'s block iff each coordinate is in the block's range on its axis. -/
theorem mem_blk3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v58).slice (win3_2.rect t)).set ↔ _
  rw [View.set_slice_whole, Rect.mem_set_unit]
  exact Iff.rfl

/-- Row `r` of the result is written by point `r / 5000`: the ten blocks tile the array. -/
theorem cover3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : grid3.N = 10 := N_3
  have ht : (i 0).val / 5000 < cfg3.N := by show (i 0).val / 5000 < grid3.N; omega
  obtain ⟨e0, e1, e2, e3, e4, e5⟩ := blocks3 ⟨(i 0).val / 5000, ht⟩
  refine ⟨⟨(i 0).val / 5000, ht⟩, flush3_2 _, ?_⟩
  rw [mem_blk3]
  intro a
  match a with
  | ⟨0, _⟩ => show win3_2.index ⟨(i 0).val / 5000, ht⟩ (0 : Fin 2) * 5000 ≤ (i 0).val ∧ (i 0).val < win3_2.index ⟨(i 0).val / 5000, ht⟩ (0 : Fin 2) * 5000 + 5000; simp only [] at e4; omega
  | ⟨1, _⟩ => show win3_2.index ⟨(i 0).val / 5000, ht⟩ (1 : Fin 2) * 64 ≤ (i 1).val ∧ (i 1).val < win3_2.index ⟨(i 0).val / 5000, ht⟩ (1 : Fin 2) * 64 + 64; omega

/-- The result array after the launch is `biasFloor` of the operand arrays as the launch finds them. -/
theorem final3 (c : Dev nD) : (dat3 V c).arrAt 2 cfg3.N = biasFloor (Ideal.ofBits .f32 0x00000000#32) (V c main_v56) (V c main_v57) :=
  (dat3 V c).arrAt_eq_of_cover 2 _ (fun t _ => flushed3 V c t) cover3

end Cert.KernelIdeal.Layers

end
-- ==== Proof.Project3.lean ====
/-
  The third layer's projection: launch 4 multiplies the 50000×64 activations by the 64×32 weights, ten blocks of 5000 rows
  at a time. A block of rows of a matrix product is the product of that block of rows with the whole weight matrix, and the
  ten blocks tile the rows, so whatever the buffers hold when the launch is entered, the result array ends as the whole
  product `rowsTimes` of the two operand arrays.
-/
import proofs.«161257_j64467459113444_1_alg».proof.Proof.Gen.KernelIdeal.Frame
import proofs.«161257_j64467459113444_1_alg».proof.Proof.LibDenseLayers
import Idealize.ShloMosaic.Lib.Pipeline.Value

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibDense
open scoped BigOperators

variable (V : (c : Dev nD) → (b : Ref sig .tc) → Buf (Elt Ideal) ((c : Thread nD τ).loc b))

theorem zero2_4 : (![0, 0] : Fin 2 → Nat) = fun _ => 0 := funext fun a => by fin_cases a <;> rfl

/-- The block index maps over the ten grid points: point `t` takes rows `[5000 t, 5000 t + 5000)` of the activations and of the
    result, and the whole weight matrix. -/
theorem blocks4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's arithmetic at an entry: the block's row times the weights' column. -/
theorem pay4_apply (x0 : Vec Ideal S5000x64 .f32) (x1 : Vec Ideal S64x32 .f32) (p : Fin 5000) (q : Fin 32) :
    k4_pay1 x0 x1 (ix2 p q) = ∑ k : Fin 64, x0 (ix2 p k) * x1 (ix2 k q) := by
  unfold k4_pay1
  exact vec_mm_cast_apply dot_S5000x64_S64x32_S5000x32_1_0_0_1_n_n rfl x0 x1 shapeCasts_S5000x64_S5000x64 bitsLt_bf16_f32 p q

/-- An entry of the body's result is the entry of the whole product whose row is the block row's place in the array. -/
theorem rows_block4 (X : S50000x64.Idx → EReal) (Wt : S64x32.Idx → EReal) (x0 : Vec Ideal S5000x64 .f32) (x1 : Vec Ideal S64x32 .f32)
    (j : S5000x32.Idx) (i : S50000x32.Idx)
    (hx : ∀ k : Fin 64, x0 (ix2 (j 0) k) = X (ix2 (i 0) k)) (hw : ∀ k : Fin 64, x1 (ix2 k (j 1)) = Wt (ix2 k (i 1))) :
    k4_pay1 x0 x1 j = rowsTimes X Wt i := by
  have h := (congrArg (k4_pay1 x0 x1) (eq_ix2 j)).trans (pay4_apply x0 x1 (j 0) (j 1))
  rw [h]
  unfold rowsTimes
  exact Finset.sum_congr rfl fun k _ => by rw [hx k, hw k]

/-- What point `t` writes back is block `t` of the whole product of the arrays as the launch finds them. -/
theorem flushed4 (c : Dev nD) (t : Fin cfg4.N) :
    (dat4 V c).flushed 2 t = ((cfg4.win 2).blk t).view.read (Elt Ideal) (rowsTimes (V c main_v58) (V c main_arg6)) := by
  show (cfg4.win 2).cut (grid4.coords t) ((dat4 V c).after 2 t) = _
  rw [after4_2]
  unfold out4_2
  rw [View.canon_unit_zero zero2_4]
  simp only [View.ld_unit_zero (S := S5000x64) zero2_4, View.ld_unit_zero (S := S64x32) zero2_4]
  obtain ⟨e0, e1, e2, e3, e4, e5⟩ := blocks4 t
  funext j
  refine rows_block4 (V c main_v58) (V c main_arg6) (iblk4 V c 0 t) (iblk4 V c 1 t) j (((cfg4.win 2).blk t).view.emb j) (fun k => ?_) (fun k => ?_)
  · show V c main_v58 (((cfg4.win 0).blk t).view.emb (ix2 (j 0) k)) = V c main_v58 (ix2 ((((cfg4.win 2).blk t).view.emb j) 0) k)
    refine congrArg (V c main_v58) (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 64 + 1 * k.val = k.val; omega
  · show V c main_arg6 (((cfg4.win 1).blk t).view.emb (ix2 k (j 1))) = V c main_arg6 (ix2 k ((((cfg4.win 2).blk t).view.emb j) 1))
    refine congrArg (V c main_arg6) (funext fun a => Fin.ext ?_)
    match a with
    | ⟨0, _⟩ => show win4_1.index t (0 : Fin 2) * 64 + 1 * k.val = k.val; omega
    | ⟨1, _⟩ => show win4_1.index t (1 : Fin 2) * 32 + 1 * (j 1).val = win4_2.index t (1 : Fin 2) * 32 + 1 * (j 1).val; omega

/-- An index of the result array is in point `t`'s block iff each coordinate is in the block's range on its axis. -/
theorem mem_blk4 (t : Fin cfg4.N) (i : S50000x32.Idx) :
    i ∈ ((cfg4.win 2).blk t).view.set ↔ ∀ a : Fin 2, win4_2.index t a * S5000x32.size a ≤ (i a).val ∧ (i a).val < win4_2.index t a * S5000x32.size a + S5000x32.size a := by
  show i ∈ ((View.whole main_v59).slice (win4_2.rect t)).set ↔ _
  rw [View.set_slice_whole, Rect.mem_set_unit]
  exact Iff.rfl

/-- Row `r` of the result is written by point `r / 5000`: the ten blocks tile the array. -/
theorem cover4 (i : S50000x32.Idx) : ∃ t : Fin cfg4.N, (cfg4.win 2).flush t = true ∧ i ∈ ((cfg4.win 2).blk t).view.set := by
  have hi0 : (i 0).val < 50000 := (i 0).isLt
  have hi1 : (i 1).val < 32 := (i 1).isLt
  have hN : grid4.N = 10 := N_4
  have ht : (i 0).val / 5000 < cfg4.N := by show (i 0).val / 5000 < grid4.N; omega
  obtain ⟨e0, e1, e2, e3, e4, e5⟩ := blocks4 ⟨(i 0).val / 5000, ht⟩
  refine ⟨⟨(i 0).val / 5000, ht⟩, flush4_2 _, ?_⟩
  rw [mem_blk4]
  intro a
  match a with
  | ⟨0, _⟩ => show win4_2.index ⟨(i 0).val / 5000, ht⟩ (0 : Fin 2) * 5000 ≤ (i 0).val ∧ (i 0).val < win4_2.index ⟨(i 0).val / 5000, ht⟩ (0 : Fin 2) * 5000 + 5000; simp only [] at e4; omega
  | ⟨1, _⟩ => show win4_2.index ⟨(i 0).val / 5000, ht⟩ (1 : Fin 2) * 32 ≤ (i 1).val ∧ (i 1).val < win4_2.index ⟨(i 0).val / 5000, ht⟩ (1 : Fin 2) * 32 + 32; omega

/-- The result array after the launch is the whole product of the operand arrays as the launch finds them. -/
theorem final4 (c : Dev nD) : (dat4 V c).arrAt 2 cfg4.N = rowsTimes (V c main_v58) (V c main_arg6) :=
  (dat4 V c).arrAt_eq_of_cover 2 _ (fun t _ => flushed4 V c t) cover4

end Cert.KernelIdeal.Layers

end
-- ==== Proof.BiasRelu3.lean ====
/-
  The third layer's bias and ReLU: launch 5 adds the bias row to every row of the aggregated 50000×32 array and floors
  every entry at zero, ten blocks of 5000 rows at a time. The operation is entrywise in the array and reads the bias at the
  entry's column only, and the ten blocks tile the rows, so the result array ends as `biasFloor` of the two operand arrays as
  the launch finds them.
-/
import proofs.«161257_j64467459113444_1_alg».proof.Proof.Gen.KernelIdeal.Frame
import proofs.«161257_j64467459113444_1_alg».proof.Proof.LibDenseLayers
import Idealize.ShloMosaic.Lib.Pipeline.Value

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibDense
open scoped BigOperators

variable (V : (c : Dev nD) → (b : Ref sig .tc) → Buf (Elt Ideal) ((c : Thread nD τ).loc b))

theorem zero2_5 : (![0, 0] : Fin 2 → Nat) = fun _ => 0 := funext fun a => by fin_cases a <;> rfl

/-- The block index maps over the ten grid points: point `t` takes rows `[5000 t, 5000 t + 5000)` of the aggregated array and of
    the result, and the whole bias row. -/
theorem blocks5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The body's arithmetic at an entry: the entry plus its column's bias, floored at zero. -/
theorem pay5_apply (x0 : Vec Ideal S5000x32 .f32) (x1 : Vec Ideal S1x32 .f32) (p : Fin 5000) (q : Fin 32) :
    k5_pay1 x0 x1 (ix2 p q) = max (x0 (ix2 p q) + x1 (ix2 (0 : Fin 1) q)) (Ideal.ofBits .f32 0x00000000#32) := by
  unfold k5_pay1
  exact vec_bias_floor_apply x0 x1 shapeCasts_S5000x32_S5000x32 shapeCasts_S1x32_S1x32 broadcasts_S1x32_S5000x32 p q

/-- An entry of the body's result is the entry of `biasFloor` of the whole arrays at the block entry's place in the array. -/
theorem floor_block5 (A : S50000x32.Idx → EReal) (B : S1x32.Idx → EReal) (x0 : Vec Ideal S5000x32 .f32) (x1 : Vec Ideal S1x32 .f32)
    (j : S5000x32.Idx) (i : S50000x32.Idx)
    (ha : x0 j = A i) (hb : x1 (ix2 (0 : Fin 1) (j 1)) = B (ix2 (0 : Fin 1) (i 1))) :
    k5_pay1 x0 x1 j = biasFloor (Ideal.ofBits .f32 0x00000000#32) A B i := by
  have h := (congrArg (k5_pay1 x0 x1) (eq_ix2 j)).trans (pay5_apply x0 x1 (j 0) (j 1))
  refine h.trans ?_
  show max (x0 (ix2 (j 0) (j 1)) + x1 (ix2 (0 : Fin 1) (j 1))) (Ideal.ofBits .f32 0x00000000#32) = max (A i + B (ix2 (0 : Fin 1) (i 1))) (Ideal.ofBits .f32 0x00000000#32)
  have ha' : x0 (ix2 (j 0) (j 1)) = A i := (congrArg x0 (eq_ix2 j).symm).trans ha
  exact congrArg (fun v => max v (Ideal.ofBits .f32 0x00000000#32)) (congrArg₂ (· + ·) ha' hb)

/-- What point `t` writes back is block `t` of `biasFloor` of the arrays as the launch finds them. -/
theorem flushed5 (c : Dev nD) (t : Fin cfg5.N) :
    (dat5 V c).flushed 2 t = ((cfg5.win 2).blk t).view.read (Elt Ideal) (biasFloor (Ideal.ofBits .f32 0x00000000#32) (V c main_v72) (V c main_v73)) := by
  show (cfg5.win 2).cut (grid5.coords t) ((dat5 V c).after 2 t) = _
  rw [after5_2]
  unfold out5_2
  rw [View.canon_unit_zero zero2_5]
  simp only [View.ld_unit_zero (S := S5000x32) zero2_5, View.ld_unit_zero (S := S1x32) zero2_5]
  obtain ⟨e0, e1, e2, e3, e4, e5⟩ := blocks5 t
  funext j
  refine floor_block5 (V c main_v72) (V c main_v73) (iblk5 V c 0 t) (iblk5 V c 1 t) j (((cfg5.win 2).blk t).view.emb j) ?_ ?_
  · show V c main_v72 (((cfg5.win 0).blk t).view.emb j) = V c main_v72 (((cfg5.win 2).blk t).view.emb j)
    refine congrArg (V c main_v72) (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 32 + 1 * (j 1).val = win5_2.index t (1 : Fin 2) * 32 + 1 * (j 1).val; omega
  · show V c main_v73 (((cfg5.win 1).blk t).view.emb (ix2 (0 : Fin 1) (j 1))) = V c main_v73 (ix2 (0 : Fin 1) ((((cfg5.win 2).blk t).view.emb j) 1))
    refine congrArg (V c main_v73) (funext fun a => Fin.ext ?_)
    match a with
    | ⟨0, _⟩ => show win5_1.index t (0 : Fin 2) * 1 + 1 * 0 = 0; omega
    | ⟨1, _⟩ => show win5_1.index t (1 : Fin 2) * 32 + 1 * (j 1).val = win5_2.index t (1 : Fin 2) * 32 + 1 * (j 1).val; omega

/-- An index of the result array is in point `t`'s block iff each coordinate is in the block's range on its axis. -/
theorem mem_blk5 (t : Fin cfg5.N) (i : S50000x32.Idx) :
    i ∈ ((cfg5.win 2).blk t).view.set ↔ ∀ a : Fin 2, win5_2.index t a * S5000x32.size a ≤ (i a).val ∧ (i a).val < win5_2.index t a * S5000x32.size a + S5000x32.size a := by
  show i ∈ ((View.whole main_v74).slice (win5_2.rect t)).set ↔ _
  rw [View.set_slice_whole, Rect.mem_set_unit]
  exact Iff.rfl

/-- Row `r` of the result is written by point `r / 5000`: the ten blocks tile the array. -/
theorem cover5 (i : S50000x32.Idx) : ∃ t : Fin cfg5.N, (cfg5.win 2).flush t = true ∧ i ∈ ((cfg5.win 2).blk t).view.set := by
  have hi0 : (i 0).val < 50000 := (i 0).isLt
  have hi1 : (i 1).val < 32 := (i 1).isLt
  have hN : grid5.N = 10 := N_5
  have ht : (i 0).val / 5000 < cfg5.N := by show (i 0).val / 5000 < grid5.N; omega
  obtain ⟨e0, e1, e2, e3, e4, e5⟩ := blocks5 ⟨(i 0).val / 5000, ht⟩
  refine ⟨⟨(i 0).val / 5000, ht⟩, flush5_2 _, ?_⟩
  rw [mem_blk5]
  intro a
  match a with
  | ⟨0, _⟩ => show win5_2.index ⟨(i 0).val / 5000, ht⟩ (0 : Fin 2) * 5000 ≤ (i 0).val ∧ (i 0).val < win5_2.index ⟨(i 0).val / 5000, ht⟩ (0 : Fin 2) * 5000 + 5000; simp only [] at e4; omega
  | ⟨1, _⟩ => show win5_2.index ⟨(i 0).val / 5000, ht⟩ (1 : Fin 2) * 32 ≤ (i 1).val ∧ (i 1).val < win5_2.index ⟨(i 0).val / 5000, ht⟩ (1 : Fin 2) * 32 + 32; omega

/-- The result array after the launch is `biasFloor` of the operand arrays as the launch finds them. -/
theorem final5 (c : Dev nD) : (dat5 V c).arrAt 2 cfg5.N = biasFloor (Ideal.ofBits .f32 0x00000000#32) (V c main_v72) (V c main_v73) :=
  (dat5 V c).arrAt_eq_of_cover 2 _ (fun t _ => flushed5 V c t) cover5

end Cert.KernelIdeal.Layers

end
-- ==== Proof.Readout.lean ====
/-
  The readout: launch 6 multiplies the 50000×32 activations by the 32×1 weights and adds the one-entry bias, ten blocks of
  5000 rows at a time. A block of rows of the product is the product of the block of rows, the bias is the same for every
  row, and the ten blocks tile the rows, so the result array ends as `rowsTimesPlus` of the three operand arrays as the launch
  finds them.
-/
import proofs.«161257_j64467459113444_1_alg».proof.Proof.Gen.KernelIdeal.Frame
import proofs.«161257_j64467459113444_1_alg».proof.Proof.LibDenseLayers
import Idealize.ShloMosaic.Lib.Pipeline.Value

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibDense
open scoped BigOperators

variable (V : (c : Dev nD) → (b : Ref sig .tc) → Buf (Elt Ideal) ((c : Thread nD τ).loc b))

theorem zero2_6 : (![0, 0] : Fin 2 → Nat) = fun _ => 0 := funext fun a => by fin_cases a <;> rfl

/-- The block index maps over the ten grid points: point `t` takes rows `[5000 t, 5000 t + 5000)` of the activations and of the
    result, the whole weight column and the bias. -/
theorem blocks6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The body's arithmetic at an entry: the block's row times the weight column, plus the bias. -/
theorem pay6_apply (x0 : Vec Ideal S5000x32 .f32) (x1 : Vec Ideal S32x1 .f32) (x2 : Vec Ideal S1x1 .f32) (p : Fin 5000) (q : Fin 1) :
    k6_pay1 x0 x1 x2 (ix2 p q) = (∑ k : Fin 32, x0 (ix2 p k) * x1 (ix2 k q)) + x2 (ix2 (0 : Fin 1) q) := by
  unfold k6_pay1
  exact vec_mm_plus_apply dot_S5000x32_S32x1_S5000x1_1_0_0_1_n_n rfl x0 x1 x2 shapeCasts_S5000x32_S5000x32 shapeCasts_S1x1_S1x1 broadcasts_S1x1_S5000x1 bitsLt_bf16_f32 p q

/-- An entry of the body's result is the entry of `rowsTimesPlus` of the whole arrays whose row is the block row's place. -/
theorem rows_block6 (X : S50000x32.Idx → EReal) (Wt : S32x1.Idx → EReal) (B : S1x1.Idx → EReal)
    (x0 : Vec Ideal S5000x32 .f32) (x1 : Vec Ideal S32x1 .f32) (x2 : Vec Ideal S1x1 .f32)
    (j : S5000x1.Idx) (i : S50000x1.Idx)
    (hx : ∀ k : Fin 32, x0 (ix2 (j 0) k) = X (ix2 (i 0) k)) (hw : ∀ k : Fin 32, x1 (ix2 k (j 1)) = Wt (ix2 k (i 1)))
    (hb : x2 (ix2 (0 : Fin 1) (j 1)) = B (ix2 (0 : Fin 1) (i 1))) :
    k6_pay1 x0 x1 x2 j = rowsTimesPlus X Wt B i := by
  have h := (congrArg (k6_pay1 x0 x1 x2) (eq_ix2 j)).trans (pay6_apply x0 x1 x2 (j 0) (j 1))
  rw [h, hb]
  unfold rowsTimesPlus rowsTimes
  exact congrArg (· + B (ix2 (0 : Fin 1) (i 1))) (Finset.sum_congr rfl fun k _ => by rw [hx k, hw k])

/-- What point `t` writes back is block `t` of `rowsTimesPlus` of the arrays as the launch finds them. -/
theorem flushed6 (c : Dev nD) (t : Fin cfg6.N) :
    (dat6 V c).flushed 3 t = ((cfg6.win 3).blk t).view.read (Elt Ideal) (rowsTimesPlus (V c main_v74) (V c main_arg8) (V c main_v75)) := by
  show (cfg6.win 3).cut (grid6.coords t) ((dat6 V c).after 3 t) = _
  rw [after6_3]
  unfold out6_3
  rw [View.canon_unit_zero zero2_6]
  simp only [View.ld_unit_zero (S := S5000x32) zero2_6, View.ld_unit_zero (S := S32x1) zero2_6, View.ld_unit_zero (S := S1x1) zero2_6]
  obtain ⟨e0, e1, e2, e3, e4, e5, e6, e7⟩ := blocks6 t
  funext j
  refine rows_block6 (V c main_v74) (V c main_arg8) (V c main_v75) (iblk6 V c 0 t) (iblk6 V c 1 t) (iblk6 V c 2 t) j (((cfg6.win 3).blk t).view.emb j) (fun k => ?_) (fun k => ?_) ?_
  · show V c main_v74 (((cfg6.win 0).blk t).view.emb (ix2 (j 0) k)) = V c main_v74 (ix2 ((((cfg6.win 3).blk t).view.emb j) 0) k)
    refine congrArg (V c main_v74) (funext fun a => Fin.ext ?_)
    match a with
    | ⟨0, _⟩ => show win6_0.index t (0 : Fin 2) * 5000 + 1 * (j 0).val = win6_3.index t (0 : Fin 2) * 5000 + 1 * (j 0).val; omega
    | ⟨1, _⟩ => show win6_0.index t (1 : Fin 2) * 32 + 1 * k.val = k.val; omega
  · show V c main_arg8 (((cfg6.win 1).blk t).view.emb (ix2 k (j 1))) = V c main_arg8 (ix2 k ((((cfg6.win 3).blk t).view.emb j) 1))
    refine congrArg (V c main_arg8) (funext fun a => Fin.ext ?_)
    match a with
    | ⟨0, _⟩ => show win6_1.index t (0 : Fin 2) * 32 + 1 * k.val = k.val; omega
    | ⟨1, _⟩ => show win6_1.index t (1 : Fin 2) * 1 + 1 * (j 1).val = win6_3.index t (1 : Fin 2) * 1 + 1 * (j 1).val; omega
  · show V c main_v75 (((cfg6.win 2).blk t).view.emb (ix2 (0 : Fin 1) (j 1))) = V c main_v75 (ix2 (0 : Fin 1) ((((cfg6.win 3).blk t).view.emb j) 1))
    refine congrArg (V c main_v75) (funext fun a => Fin.ext ?_)
    match a with
    | ⟨0, _⟩ => show win6_2.index t (0 : Fin 2) * 1 + 1 * 0 = 0; omega
    | ⟨1, _⟩ => show win6_2.index t (1 : Fin 2) * 1 + 1 * (j 1).val = win6_3.index t (1 : Fin 2) * 1 + 1 * (j 1).val; omega

/-- An index of the result array is in point `t`'s block iff each coordinate is in the block's range on its axis. -/
theorem mem_blk6 (t : Fin cfg6.N) (i : S50000x1.Idx) :
    i ∈ ((cfg6.win 3).blk t).view.set ↔ ∀ a : Fin 2, win6_3.index t a * S5000x1.size a ≤ (i a).val ∧ (i a).val < win6_3.index t a * S5000x1.size a + S5000x1.size a := by
  show i ∈ ((View.whole main_v76).slice (win6_3.rect t)).set ↔ _
  rw [View.set_slice_whole, Rect.mem_set_unit]
  exact Iff.rfl

/-- Row `r` of the result is written by point `r / 5000`: the ten blocks tile the array. -/
theorem cover6 (i : S50000x1.Idx) : ∃ t : Fin cfg6.N, (cfg6.win 3).flush t = true ∧ i ∈ ((cfg6.win 3).blk t).view.set := by
  have hi0 : (i 0).val < 50000 := (i 0).isLt
  have hi1 : (i 1).val < 1 := (i 1).isLt
  have hN : grid6.N = 10 := N_6
  have ht : (i 0).val / 5000 < cfg6.N := by show (i 0).val / 5000 < grid6.N; omega
  obtain ⟨e0, e1, e2, e3, e4, e5, e6, e7⟩ := blocks6 ⟨(i 0).val / 5000, ht⟩
  refine ⟨⟨(i 0).val / 5000, ht⟩, flush6_3 _, ?_⟩
  rw [mem_blk6]
  intro a
  match a with
  | ⟨0, _⟩ => show win6_3.index ⟨(i 0).val / 5000, ht⟩ (0 : Fin 2) * 5000 ≤ (i 0).val ∧ (i 0).val < win6_3.index ⟨(i 0).val / 5000, ht⟩ (0 : Fin 2) * 5000 + 5000; simp only [] at e6; omega
  | ⟨1, _⟩ => show win6_3.index ⟨(i 0).val / 5000, ht⟩ (1 : Fin 2) * 1 ≤ (i 1).val ∧ (i 1).val < win6_3.index ⟨(i 0).val / 5000, ht⟩ (1 : Fin 2) * 1 + 1; omega

/-- The result array after the launch is `rowsTimesPlus` of the operand arrays as the launch finds them. -/
theorem final6 (c : Dev nD) : (dat6 V c).arrAt 3 cfg6.N = rowsTimesPlus (V c main_v74) (V c main_arg8) (V c main_v75) :=
  (dat6 V c).arrAt_eq_of_cover 3 _ (fun t _ => flushed6 V c t) cover6

end Cert.KernelIdeal.Layers

end
-- ==== Proof.HostStages.lean ====
/-
  The graph-convolution network as the reference spells it on the host, cut into named stages. With `s`, `d` the source and
  destination node of every edge (the given edges followed by one self-loop per node) and `en` the symmetric normalisation
  `deg^(-1/2)[s] · deg^(-1/2)[d]`, a layer is: project the activations by the weights, aggregate over the edges
  (`aggregateN`), add the bias, floor at zero; three layers, then a readout product plus bias. The aggregation stages are kept
  as the host's own gather / scatter-add operations and never opened: both programs apply the very same operations there.
  `network_eq` rewrites the dense stages — each `dot_general`, each bias add with its ReLU, the readout — into the
  whole-array functions `rowsTimes`, `biasFloor`, `rowsTimesPlus`; the aggregation stages stay as they are.
-/
import proofs.«161257_j64467459113444_1_alg».proof.Proof.Gen.ReferenceIdeal
import proofs.«161257_j64467459113444_1_alg».proof.Proof.LibDenseLayers
import Idealize.ShloMosaic.PureOps.Ideal

set_option maxRecDepth 16384

noncomputable section

namespace Cert.Gcn

open Idealize.ShloMosaic Idealize.ShloMosaic.ValueIdx
open Cert.ReferenceIdeal Cert.ReferenceIdeal.Gen Cert.LibDense

abbrev I32s (S : Shape) := IVec S 32
abbrev F32s (S : Shape) := FVec Ideal S .f32

/-- The source node of every edge: row 0 of the edge list, then one self-loop per node. -/
def srcIdx (e : I32s S2x800000) : I32s S850000 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The destination node of every edge: row 1 of the edge list, then one self-loop per node. -/
def dstIdx (e : I32s S2x800000) : I32s S850000 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative node index counts from the end: add the node count to it. -/
def wrapIdx (s : I32s S850000) : I32s S850000 :=
  select (cmpi .slt s (broadcastInDim S850000 ![] bcast_S_S850000 (constantI S_ 32 0#32))) (addi s (broadcastInDim S850000 ![] bcast_S_S850000 (constantI S_ 32 50000#32))) s

/-- `deg^(-1/2)`: the reciprocal square root of the number of edges arriving at each node. -/
def degInv (d : I32s S850000) : F32s S50000 :=
  Host.rsqrt (F := Ideal) (Host.scatterAdd (F := Ideal) scatter_S50000_S850000x1_S850000_n_0_0_1 (broadcastInDim S50000 ![] bcast_S_S50000 (constant (F := Ideal) S_ .f32 0x00000000#32)) (broadcastInDim S850000x1 ![0] bcast_S850000_S850000x1_0 d) (broadcastInDim S850000 ![] bcast_S_S850000 (constant (F := Ideal) S_ .f32 0x3F800000#32)))

/-- The coefficient of every edge: `deg^(-1/2)` at its source times `deg^(-1/2)` at its destination. -/
def edgeNorm (s d : I32s S850000) : F32s S850000 :=
  mulf (Host.gather gather_S50000_S850000x1_S850000_n_0_n_n_0_1_1 (degInv d) (broadcastInDim S850000x1 ![0] bcast_S850000_S850000x1_0 (wrapIdx s)))
    (Host.gather gather_S50000_S850000x1_S850000_n_0_n_n_0_1_1 (degInv d) (broadcastInDim S850000x1 ![0] bcast_S850000_S850000x1_0 (wrapIdx d)))

/-- The aggregation of a 50000×128 array over the edges: row `wrap s e` of `p` scaled by the edge's coefficient, added into row `d e`
    of a zero array, for every edge `e` (the host's gather, two-step broadcast of the coefficients, product and scatter-add). -/
def aggregate128 (p : F32s S50000x128) (s d : I32s S850000) (en : F32s S850000) : F32s S50000x128 :=
  Host.scatterAdd (F := Ideal) scatter_S50000x128_S850000x1_S850000x128_1_0_0_1 (broadcastInDim S50000x128 ![] bcast_S_S50000x128 (constant (F := Ideal) S_ .f32 0x00000000#32)) (broadcastInDim S850000x1 ![0] bcast_S850000_S850000x1_0 d)
    (mulf (Host.gather gather_S50000x128_S850000x1_S850000x128_1_0_n_n_0_1_1128 p (broadcastInDim S850000x1 ![0] bcast_S850000_S850000x1_0 (wrapIdx s)))
      (broadcastInDim S850000x128 ![0, 1] bcast_S850000x1_S850000x128_0_1 (broadcastInDim S850000x1 ![0] bcast_S850000_S850000x1_0 en)))

/-- The aggregation of a 50000×64 array over the edges: row `wrap s e` of `p` scaled by the edge's coefficient, added into row `d e`
    of a zero array, for every edge `e` (the host's gather, two-step broadcast of the coefficients, product and scatter-add). -/
def aggregate64 (p : F32s S50000x64) (s d : I32s S850000) (en : F32s S850000) : F32s S50000x64 :=
  Host.scatterAdd (F := Ideal) scatter_S50000x64_S850000x1_S850000x64_1_0_0_1 (broadcastInDim S50000x64 ![] bcast_S_S50000x64 (constant (F := Ideal) S_ .f32 0x00000000#32)) (broadcastInDim S850000x1 ![0] bcast_S850000_S850000x1_0 d)
    (mulf (Host.gather gather_S50000x64_S850000x1_S850000x64_1_0_n_n_0_1_164 p (broadcastInDim S850000x1 ![0] bcast_S850000_S850000x1_0 (wrapIdx s)))
      (broadcastInDim S850000x64 ![0, 1] bcast_S850000x1_S850000x64_0_1 (broadcastInDim S850000x1 ![0] bcast_S850000_S850000x1_0 en)))

/-- The aggregation of a 50000×32 array over the edges: row `wrap s e` of `p` scaled by the edge's coefficient, added into row `d e`
    of a zero array, for every edge `e` (the host's gather, two-step broadcast of the coefficients, product and scatter-add). -/
def aggregate32 (p : F32s S50000x32) (s d : I32s S850000) (en : F32s S850000) : F32s S50000x32 :=
  Host.scatterAdd (F := Ideal) scatter_S50000x32_S850000x1_S850000x32_1_0_0_1 (broadcastInDim S50000x32 ![] bcast_S_S50000x32 (constant (F := Ideal) S_ .f32 0x00000000#32)) (broadcastInDim S850000x1 ![0] bcast_S850000_S850000x1_0 d)
    (mulf (Host.gather gather_S50000x32_S850000x1_S850000x32_1_0_n_n_0_1_132 p (broadcastInDim S850000x1 ![0] bcast_S850000_S850000x1_0 (wrapIdx s)))
      (broadcastInDim S850000x32 ![0, 1] bcast_S850000x1_S850000x32_0_1 (broadcastInDim S850000x1 ![0] bcast_S850000_S850000x1_0 en)))

/-- The whole network in the host's spelling. -/
def network (x : F32s S50000x128) (w1 : F32s S128x128) (b1 : F32s S128) (w2 : F32s S128x64) (b2 : F32s S64) (w3 : F32s S64x32) (b3 : F32s S32)
    (wl : F32s S32x1) (bl : F32s S1) (s d : I32s S850000) (en : F32s S850000) : F32s S50000x1 :=
  addf (Host.dotGeneral (F := Ideal) dot_S50000x32_S32x1_S50000x1_1_0_0_1_n_n none
      (maximumf (addf (aggregate32 (Host.dotGeneral (F := Ideal) dot_S50000x64_S64x32_S50000x32_1_0_0_1_n_n none
          (maximumf (addf (aggregate64 (Host.dotGeneral (F := Ideal) dot_S50000x128_S128x64_S50000x64_1_0_0_1_n_n none
              (maximumf (addf (aggregate128 (Host.dotGeneral (F := Ideal) dot_S50000x128_S128x128_S50000x128_1_0_0_1_n_n none x w1) s d en)
                  (broadcastInDim S50000x128 ![0, 1] bcast_S1x128_S50000x128_0_1 (broadcastInDim S1x128 ![1] bcast_S128_S1x128_1 b1)))
                (broadcastInDim S50000x128 ![] bcast_S_S50000x128 (constant (F := Ideal) S_ .f32 0x00000000#32))) w2) s d en)
              (broadcastInDim S50000x64 ![0, 1] bcast_S1x64_S50000x64_0_1 (broadcastInDim S1x64 ![1] bcast_S64_S1x64_1 b2)))
            (broadcastInDim S50000x64 ![] bcast_S_S50000x64 (constant (F := Ideal) S_ .f32 0x00000000#32))) w3) s d en)
          (broadcastInDim S50000x32 ![0, 1] bcast_S1x32_S50000x32_0_1 (broadcastInDim S1x32 ![1] bcast_S32_S1x32_1 b3)))
        (broadcastInDim S50000x32 ![] bcast_S_S50000x32 (constant (F := Ideal) S_ .f32 0x00000000#32))) wl)
    (broadcastInDim S50000x1 ![0, 1] bcast_S1x1_S50000x1_0_1 (broadcastInDim S1x1 ![1] bcast_S1_S1x1_1 bl))

/-- The same network with every dense stage as its whole-array function and each bias laid out as one row. -/
def networkRows (x : F32s S50000x128) (w1 : F32s S128x128) (b1 : F32s S1x128) (w2 : F32s S128x64) (b2 : F32s S1x64) (w3 : F32s S64x32) (b3 : F32s S1x32)
    (wl : F32s S32x1) (bl : F32s S1x1) (s d : I32s S850000) (en : F32s S850000) : F32s S50000x1 :=
  rowsTimesPlus (biasFloor (Ideal.ofBits .f32 0x00000000#32) (aggregate32 (rowsTimes
    (biasFloor (Ideal.ofBits .f32 0x00000000#32) (aggregate64 (rowsTimes
      (biasFloor (Ideal.ofBits .f32 0x00000000#32) (aggregate128 (rowsTimes x w1) s d en) b1) w2) s d en) b2) w3) s d en) b3) wl bl

/-- The host's spelling is the whole-array one, the biases cast to one row each. -/
theorem network_eq (x : F32s S50000x128) (w1 : F32s S128x128) (b1 : F32s S128) (w2 : F32s S128x64) (b2 : F32s S64) (w3 : F32s S64x32) (b3 : F32s S32)
    (wl : F32s S32x1) (bl : F32s S1) (s d : I32s S850000) (en : F32s S850000)
    (h128 : S128.ShapeCasts S1x128) (h64 : S64.ShapeCasts S1x64) (h32 : S32.ShapeCasts S1x32) (h1 : S1.ShapeCasts S1x1) :
    network x w1 b1 w2 b2 w3 b3 wl bl s d en
      = networkRows x w1 (shapeCast S1x128 b1 h128) w2 (shapeCast S1x64 b2 h64) w3 (shapeCast S1x32 b3 h32) wl (shapeCast S1x1 bl h1) s d en := by
  unfold network networkRows
  rw [host_mm_plus dot_S50000x32_S32x1_S50000x1_1_0_0_1_n_n rfl _ wl bl bcast_S1_S1x1_1 bcast_S1x1_S50000x1_0_1 h1,
    host_bias_floor _ b3 bcast_S32_S1x32_1 bcast_S1x32_S50000x32_0_1 bcast_S_S50000x32 h32,
    host_mm dot_S50000x64_S64x32_S50000x32_1_0_0_1_n_n rfl _ w3,
    host_bias_floor _ b2 bcast_S64_S1x64_1 bcast_S1x64_S50000x64_0_1 bcast_S_S50000x64 h64,
    host_mm dot_S50000x128_S128x64_S50000x64_1_0_0_1_n_n rfl _ w2,
    host_bias_floor _ b1 bcast_S128_S1x128_1 bcast_S1x128_S50000x128_0_1 bcast_S_S50000x128 h128,
    host_mm dot_S50000x128_S128x128_S50000x128_1_0_0_1_n_n rfl x w1]

end Cert.Gcn

end
-- ==== Proof.Chain.lean ====
/-
  The idealized kernel's result, as one function of the argument arrays. The buffer contents at the segment boundaries are
  a fold: a stretch of host operations applies them, a launch replaces its result array by what its ten write-backs leave.
  Reading the result buffer back through the fold: the readout launch leaves `rowsTimesPlus` of the third layer's
  activations; each bias-and-ReLU launch leaves `biasFloor` of the aggregated array the stretch before it computed; each
  stretch aggregates, over the edges, the projection the launch before it left as `rowsTimes`; and a buffer nobody writes in
  between (the edges' endpoints and coefficients, the weights, the biases) is what the first stretch or the launch memory
  put there. The aggregation stages are the reference's own host operations on the same operands, so the composition is the
  reference's network with every dense stage as its whole-array function.
-/
import proofs.«161257_j64467459113444_1_alg».proof.Proof.Project1
import proofs.«161257_j64467459113444_1_alg».proof.Proof.BiasRelu1
import proofs.«161257_j64467459113444_1_alg».proof.Proof.Project2
import proofs.«161257_j64467459113444_1_alg».proof.Proof.BiasRelu2
import proofs.«161257_j64467459113444_1_alg».proof.Proof.Project3
import proofs.«161257_j64467459113444_1_alg».proof.Proof.BiasRelu3
import proofs.«161257_j64467459113444_1_alg».proof.Proof.Readout
import proofs.«161257_j64467459113444_1_alg».proof.Proof.HostStages
import Idealize.ShloMosaic.Lib.StableHlo.Run

set_option maxRecDepth 16384

noncomputable section

namespace Cert.KernelIdeal.Layers

open Idealize.ShloMosaic Idealize.ShloMosaic.TcCoe Idealize.ShloMosaic.ValueIdx Idealize.SL.Sem Idealize.ShloMosaic.StableHlo
open Cert.KernelIdeal Cert.KernelIdeal.Gen Cert.LibDense

variable (m : (ℓ : Loc nD τ sig) → Buf (Elt Ideal) ℓ) (ρ : Dev nD → PrngReg)

/-- A stretch of host operations leaves a buffer none of them writes as it was. -/
macro "skip_host " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## Buffers that nothing writes between two boundaries -/

theorem keep_main_v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem keep_main_v3_5_1 (c : Dev nD) : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := by skip_host hostOps1
    _ = W1 m ρ c (Proc.devRef .tc main_v3) := W2_of_ne m ρ c main_v3 (by decide)

theorem keep_main_v3_8_1 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := by skip_host hostOps3
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := by skip_host hostOps1
    _ = W1 m ρ c (Proc.devRef .tc main_v3) := W2_of_ne m ρ c main_v3 (by decide)

theorem keep_main_v6_2_1 (c : Dev nD) : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

theorem keep_main_v6_5_1 (c : Dev nD) : W5 m ρ c (Proc.devRef .tc main_v6) = W1 m ρ c (Proc.devRef .tc main_v6) :=
  calc W5 m ρ c (Proc.devRef .tc main_v6)
    _ = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := by skip_host hostOps1
    _ = W1 m ρ c (Proc.devRef .tc main_v6) := W2_of_ne m ρ c main_v6 (by decide)

theorem keep_main_v6_8_1 (c : Dev nD) : W8 m ρ c (Proc.devRef .tc main_v6) = W1 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := W7_of_ne m ρ c main_v6 (by decide)
    _ = W5 m ρ c (Proc.devRef .tc main_v6) := by skip_host hostOps3
    _ = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := by skip_host hostOps1
    _ = W1 m ρ c (Proc.devRef .tc main_v6) := W2_of_ne m ρ c main_v6 (by decide)

theorem keep_main_v26_2_1 (c : Dev nD) : W2 m ρ c (Proc.devRef .tc main_v26) = W1 m ρ c (Proc.devRef .tc main_v26) :=
  calc W2 m ρ c (Proc.devRef .tc main_v26)
    _ = W1 m ρ c (Proc.devRef .tc main_v26) := W2_of_ne m ρ c main_v26 (by decide)

theorem keep_main_v26_5_1 (c : Dev nD) : W5 m ρ c (Proc.devRef .tc main_v26) = W1 m ρ c (Proc.devRef .tc main_v26) :=
  calc W5 m ρ c (Proc.devRef .tc main_v26)
    _ = W4 m ρ c (Proc.devRef .tc main_v26) := W5_of_ne m ρ c main_v26 (by decide)
    _ = W3 m ρ c (Proc.devRef .tc main_v26) := W4_of_ne m ρ c main_v26 (by decide)
    _ = W2 m ρ c (Proc.devRef .tc main_v26) := by skip_host hostOps1
    _ = W1 m ρ c (Proc.devRef .tc main_v26) := W2_of_ne m ρ c main_v26 (by decide)

theorem keep_main_v26_8_1 (c : Dev nD) : W8 m ρ c (Proc.devRef .tc main_v26) = W1 m ρ c (Proc.devRef .tc main_v26) :=
  calc W8 m ρ c (Proc.devRef .tc main_v26)
    _ = W7 m ρ c (Proc.devRef .tc main_v26) := W8_of_ne m ρ c main_v26 (by decide)
    _ = W6 m ρ c (Proc.devRef .tc main_v26) := W7_of_ne m ρ c main_v26 (by decide)
    _ = W5 m ρ c (Proc.devRef .tc main_v26) := by skip_host hostOps3
    _ = W4 m ρ c (Proc.devRef .tc main_v26) := W5_of_ne m ρ c main_v26 (by decide)
    _ = W3 m ρ c (Proc.devRef .tc main_v26) := W4_of_ne m ρ c main_v26 (by decide)
    _ = W2 m ρ c (Proc.devRef .tc main_v26) := by skip_host hostOps1
    _ = W1 m ρ c (Proc.devRef .tc main_v26) := W2_of_ne m ρ c main_v26 (by decide)

theorem keep_main_arg0_1 (c : Dev nD) : W1 m ρ c (Proc.devRef .tc main_arg0) = m ((c : Thread nD τ).loc main_arg0) :=
  calc W1 m ρ c (Proc.devRef .tc main_arg0)
    _ = W0 m ρ c (Proc.devRef .tc main_arg0) := by skip_host hostOps0
    _ = m ((c : Thread nD τ).loc main_arg0) := rfl

theorem keep_main_arg1_1 (c : Dev nD) : W1 m ρ c (Proc.devRef .tc main_arg1) = m ((c : Thread nD τ).loc main_arg1) :=
  calc W1 m ρ c (Proc.devRef .tc main_arg1)
    _ = W0 m ρ c (Proc.devRef .tc main_arg1) := by skip_host hostOps0
    _ = m ((c : Thread nD τ).loc main_arg1) := rfl

theorem keep_main_arg2_1 (c : Dev nD) : W1 m ρ c (Proc.devRef .tc main_arg2) = m ((c : Thread nD τ).loc main_arg2) :=
  calc W1 m ρ c (Proc.devRef .tc main_arg2)
    _ = W0 m ρ c (Proc.devRef .tc main_arg2) := by skip_host hostOps0
    _ = m ((c : Thread nD τ).loc main_arg2) := rfl

theorem keep_main_arg3_2 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by skip_host hostOps0
    _ = m ((c : Thread nD τ).loc main_arg3) := rfl

theorem keep_main_arg4_4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by skip_host hostOps1
    _ = W1 m ρ c (Proc.devRef .tc main_arg4) := W2_of_ne m ρ c main_arg4 (by decide)
    _ = W0 m ρ c (Proc.devRef .tc main_arg4) := by skip_host hostOps0
    _ = m ((c : Thread nD τ).loc main_arg4) := rfl

theorem keep_main_arg5_5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := by skip_host hostOps1
    _ = W1 m ρ c (Proc.devRef .tc main_arg5) := W2_of_ne m ρ c main_arg5 (by decide)
    _ = W0 m ρ c (Proc.devRef .tc main_arg5) := by skip_host hostOps0
    _ = m ((c : Thread nD τ).loc main_arg5) := rfl

theorem keep_main_arg6_7 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := by skip_host hostOps3
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := by skip_host hostOps1
    _ = W1 m ρ c (Proc.devRef .tc main_arg6) := W2_of_ne m ρ c main_arg6 (by decide)
    _ = W0 m ρ c (Proc.devRef .tc main_arg6) := by skip_host hostOps0
    _ = m ((c : Thread nD τ).loc main_arg6) := rfl

theorem keep_main_arg7_8 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := by skip_host hostOps3
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := by skip_host hostOps1
    _ = W1 m ρ c (Proc.devRef .tc main_arg7) := W2_of_ne m ρ c main_arg7 (by decide)
    _ = W0 m ρ c (Proc.devRef .tc main_arg7) := by skip_host hostOps0
    _ = m ((c : Thread nD τ).loc main_arg7) := rfl

theorem keep_main_arg8_11 (c : Dev nD) : W11 m ρ c (Proc.devRef .tc main_arg8) = m ((c : Thread nD τ).loc main_arg8) :=
  calc W11 m ρ c (Proc.devRef .tc main_arg8)
    _ = W10 m ρ c (Proc.devRef .tc main_arg8) := by skip_host hostOps6
    _ = W9 m ρ c (Proc.devRef .tc main_arg8) := W10_of_ne m ρ c main_arg8 (by decide)
    _ = W8 m ρ c (Proc.devRef .tc main_arg8) := by skip_host hostOps5
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := by skip_host hostOps3
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := by skip_host hostOps1
    _ = W1 m ρ c (Proc.devRef .tc main_arg8) := W2_of_ne m ρ c main_arg8 (by decide)
    _ = W0 m ρ c (Proc.devRef .tc main_arg8) := by skip_host hostOps0
    _ = m ((c : Thread nD τ).loc main_arg8) := rfl

theorem keep_main_arg9_10 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := by skip_host hostOps5
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := by skip_host hostOps3
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := by skip_host hostOps1
    _ = W1 m ρ c (Proc.devRef .tc main_arg9) := W2_of_ne m ρ c main_arg9 (by decide)
    _ = W0 m ρ c (Proc.devRef .tc main_arg9) := by skip_host hostOps0
    _ = m ((c : Thread nD τ).loc main_arg9) := rfl

theorem keep_main_v74_11_10 (c : Dev nD) : W11 m ρ c (Proc.devRef .tc main_v74) = W10 m ρ c (Proc.devRef .tc main_v74) :=
  calc W11 m ρ c (Proc.devRef .tc main_v74)
    _ = W10 m ρ c (Proc.devRef .tc main_v74) := by skip_host hostOps6

/-! ## The first stretch: the edges' endpoints and coefficients, from the edge list alone -/

theorem edges_src (c : Dev nD) : W1 m ρ c (Proc.devRef .tc main_v3) = Cert.Gcn.srcIdx (m ((c : Thread nD τ).loc main_arg1)) := by
  show StableHlo.after hostOps0 (W0 m ρ c) (Proc.devRef .tc main_v3) = _
  after_results_simp <;> rfl

theorem edges_dst (c : Dev nD) : W1 m ρ c (Proc.devRef .tc main_v6) = Cert.Gcn.dstIdx (m ((c : Thread nD τ).loc main_arg1)) := by
  show StableHlo.after hostOps0 (W0 m ρ c) (Proc.devRef .tc main_v6) = _
  after_results_simp <;> rfl

theorem edges_norm (c : Dev nD) :
    W1 m ρ c (Proc.devRef .tc main_v26) = Cert.Gcn.edgeNorm (Cert.Gcn.srcIdx (m ((c : Thread nD τ).loc main_arg1))) (Cert.Gcn.dstIdx (m ((c : Thread nD τ).loc main_arg1))) := by
  show StableHlo.after hostOps0 (W0 m ρ c) (Proc.devRef .tc main_v26) = _
  after_results_simp <;> rfl

/-! ## The later stretches: an aggregation over the edges and a bias laid out as one row -/

theorem stretch1_agg (c : Dev nD) : W3 m ρ c (Proc.devRef .tc main_v40)
    = Cert.Gcn.aggregate128 (W2 m ρ c (Proc.devRef .tc main_v27)) (W2 m ρ c (Proc.devRef .tc main_v3)) (W2 m ρ c (Proc.devRef .tc main_v6)) (W2 m ρ c (Proc.devRef .tc main_v26)) := by
  show StableHlo.after hostOps1 (W2 m ρ c) (Proc.devRef .tc main_v40) = _
  after_results_simp <;> rfl

theorem stretch1_bias (c : Dev nD) : W3 m ρ c (Proc.devRef .tc main_v41)
    = shapeCast S1x128 (W2 m ρ c (Proc.devRef .tc main_arg3)) shapeCasts_S128_S1x128 := by
  show StableHlo.after hostOps1 (W2 m ρ c) (Proc.devRef .tc main_v41) = _
  after_results_simp <;> rfl

theorem stretch3_agg (c : Dev nD) : W6 m ρ c (Proc.devRef .tc main_v56)
    = Cert.Gcn.aggregate64 (W5 m ρ c (Proc.devRef .tc main_v43)) (W5 m ρ c (Proc.devRef .tc main_v3)) (W5 m ρ c (Proc.devRef .tc main_v6)) (W5 m ρ c (Proc.devRef .tc main_v26)) := by
  show StableHlo.after hostOps3 (W5 m ρ c) (Proc.devRef .tc main_v56) = _
  after_results_simp <;> rfl

theorem stretch3_bias (c : Dev nD) : W6 m ρ c (Proc.devRef .tc main_v57)
    = shapeCast S1x64 (W5 m ρ c (Proc.devRef .tc main_arg5)) shapeCasts_S64_S1x64 := by
  show StableHlo.after hostOps3 (W5 m ρ c) (Proc.devRef .tc main_v57) = _
  after_results_simp <;> rfl

theorem stretch5_agg (c : Dev nD) : W9 m ρ c (Proc.devRef .tc main_v72)
    = Cert.Gcn.aggregate32 (W8 m ρ c (Proc.devRef .tc main_v59)) (W8 m ρ c (Proc.devRef .tc main_v3)) (W8 m ρ c (Proc.devRef .tc main_v6)) (W8 m ρ c (Proc.devRef .tc main_v26)) := by
  show StableHlo.after hostOps5 (W8 m ρ c) (Proc.devRef .tc main_v72) = _
  after_results_simp <;> rfl

theorem stretch5_bias (c : Dev nD) : W9 m ρ c (Proc.devRef .tc main_v73)
    = shapeCast S1x32 (W8 m ρ c (Proc.devRef .tc main_arg7)) shapeCasts_S32_S1x32 := by
  show StableHlo.after hostOps5 (W8 m ρ c) (Proc.devRef .tc main_v73) = _
  after_results_simp <;> rfl

theorem stretch6_bias (c : Dev nD) : W11 m ρ c (Proc.devRef .tc main_v75)
    = shapeCast S1x1 (W10 m ρ c (Proc.devRef .tc main_arg9)) shapeCasts_S1_S1x1 := by
  show StableHlo.after hostOps6 (W10 m ρ c) (Proc.devRef .tc main_v75) = _
  after_results_simp <;> rfl

/-! ## The activations after each launch, as functions of the argument arrays -/

/-- The edges' sources, destinations and coefficients. -/
abbrev srcOf (c : Dev nD) := Cert.Gcn.srcIdx (m ((c : Thread nD τ).loc main_arg1))
abbrev dstOf (c : Dev nD) := Cert.Gcn.dstIdx (m ((c : Thread nD τ).loc main_arg1))
abbrev normOf (c : Dev nD) := Cert.Gcn.edgeNorm (Cert.Gcn.srcIdx (m ((c : Thread nD τ).loc main_arg1))) (Cert.Gcn.dstIdx (m ((c : Thread nD τ).loc main_arg1)))

/-- The first layer's projection. -/
theorem proj1 (c : Dev nD) : W2 m ρ c (Proc.devRef .tc main_v27) = rowsTimes (m ((c : Thread nD τ).loc main_arg0)) (m ((c : Thread nD τ).loc main_arg2)) := by
  refine (W2_arr m ρ c 2).trans ((final0 (V1 m ρ) c).trans ?_)
  show rowsTimes (W1 m ρ c (Proc.devRef .tc main_arg0)) (W1 m ρ c (Proc.devRef .tc main_arg2)) = _
  rw [keep_main_arg0_1, keep_main_arg2_1]

/-- The first layer's activations. -/
def act1 (c : Dev nD) : Cert.Gcn.F32s S50000x128 :=
  biasFloor (Ideal.ofBits .f32 0x00000000#32) (Cert.Gcn.aggregate128 (rowsTimes (m ((c : Thread nD τ).loc main_arg0)) (m ((c : Thread nD τ).loc main_arg2))) (srcOf m c) (dstOf m c) (normOf m c))
    (shapeCast S1x128 (m ((c : Thread nD τ).loc main_arg3)) shapeCasts_S128_S1x128)

theorem layer1 (c : Dev nD) : W4 m ρ c (Proc.devRef .tc main_v42) = act1 m c := by
  refine (W4_arr m ρ c 2).trans ((final1 (V3 m ρ) c).trans ?_)
  show biasFloor _ (W3 m ρ c (Proc.devRef .tc main_v40)) (W3 m ρ c (Proc.devRef .tc main_v41)) = _
  rw [stretch1_agg, stretch1_bias, proj1, keep_main_v3_2_1, keep_main_v6_2_1, keep_main_v26_2_1, edges_src, edges_dst, edges_norm, keep_main_arg3_2]
  rfl

/-- The second layer's projection. -/
theorem proj2 (c : Dev nD) : W5 m ρ c (Proc.devRef .tc main_v43) = rowsTimes (act1 m c) (m ((c : Thread nD τ).loc main_arg4)) := by
  refine (W5_arr m ρ c 2).trans ((final2 (V4 m ρ) c).trans ?_)
  show rowsTimes (W4 m ρ c (Proc.devRef .tc main_v42)) (W4 m ρ c (Proc.devRef .tc main_arg4)) = _
  rw [layer1, keep_main_arg4_4]

/-- The second layer's activations. -/
def act2 (c : Dev nD) : Cert.Gcn.F32s S50000x64 :=
  biasFloor (Ideal.ofBits .f32 0x00000000#32) (Cert.Gcn.aggregate64 (rowsTimes (act1 m c) (m ((c : Thread nD τ).loc main_arg4))) (srcOf m c) (dstOf m c) (normOf m c))
    (shapeCast S1x64 (m ((c : Thread nD τ).loc main_arg5)) shapeCasts_S64_S1x64)

theorem layer2 (c : Dev nD) : W7 m ρ c (Proc.devRef .tc main_v58) = act2 m c := by
  refine (W7_arr m ρ c 2).trans ((final3 (V6 m ρ) c).trans ?_)
  show biasFloor _ (W6 m ρ c (Proc.devRef .tc main_v56)) (W6 m ρ c (Proc.devRef .tc main_v57)) = _
  rw [stretch3_agg, stretch3_bias, proj2, keep_main_v3_5_1, keep_main_v6_5_1, keep_main_v26_5_1, edges_src, edges_dst, edges_norm, keep_main_arg5_5]
  rfl

/-- The third layer's projection. -/
theorem proj3 (c : Dev nD) : W8 m ρ c (Proc.devRef .tc main_v59) = rowsTimes (act2 m c) (m ((c : Thread nD τ).loc main_arg6)) := by
  refine (W8_arr m ρ c 2).trans ((final4 (V7 m ρ) c).trans ?_)
  show rowsTimes (W7 m ρ c (Proc.devRef .tc main_v58)) (W7 m ρ c (Proc.devRef .tc main_arg6)) = _
  rw [layer2, keep_main_arg6_7]

/-- The third layer's activations. -/
def act3 (c : Dev nD) : Cert.Gcn.F32s S50000x32 :=
  biasFloor (Ideal.ofBits .f32 0x00000000#32) (Cert.Gcn.aggregate32 (rowsTimes (act2 m c) (m ((c : Thread nD τ).loc main_arg6))) (srcOf m c) (dstOf m c) (normOf m c))
    (shapeCast S1x32 (m ((c : Thread nD τ).loc main_arg7)) shapeCasts_S32_S1x32)

theorem layer3 (c : Dev nD) : W10 m ρ c (Proc.devRef .tc main_v74) = act3 m c := by
  refine (W10_arr m ρ c 2).trans ((final5 (V9 m ρ) c).trans ?_)
  show biasFloor _ (W9 m ρ c (Proc.devRef .tc main_v72)) (W9 m ρ c (Proc.devRef .tc main_v73)) = _
  rw [stretch5_agg, stretch5_bias, proj3, keep_main_v3_8_1, keep_main_v6_8_1, keep_main_v26_8_1, edges_src, edges_dst, edges_norm, keep_main_arg7_8]
  rfl

/-- THE RESULT: the last boundary's contents at the result buffer are the network of the stages, every dense stage as its
    whole-array function and every bias laid out as one row. -/
theorem result_rows (c : Dev nD) : W12 m ρ c (Proc.devRef .tc main_v76)
    = Cert.Gcn.networkRows (m ((c : Thread nD τ).loc main_arg0)) (m ((c : Thread nD τ).loc main_arg2)) (shapeCast S1x128 (m ((c : Thread nD τ).loc main_arg3)) shapeCasts_S128_S1x128) (m ((c : Thread nD τ).loc main_arg4)) (shapeCast S1x64 (m ((c : Thread nD τ).loc main_arg5)) shapeCasts_S64_S1x64)
        (m ((c : Thread nD τ).loc main_arg6)) (shapeCast S1x32 (m ((c : Thread nD τ).loc main_arg7)) shapeCasts_S32_S1x32) (m ((c : Thread nD τ).loc main_arg8)) (shapeCast S1x1 (m ((c : Thread nD τ).loc main_arg9)) shapeCasts_S1_S1x1)
        (srcOf m c) (dstOf m c) (normOf m c) := by
  refine (W12_arr m ρ c 3).trans ((final6 (V11 m ρ) c).trans ?_)
  show rowsTimesPlus (W11 m ρ c (Proc.devRef .tc main_v74)) (W11 m ρ c (Proc.devRef .tc main_arg8)) (W11 m ρ c (Proc.devRef .tc main_v75)) = _
  rw [keep_main_v74_11_10, layer3, keep_main_arg8_11, stretch6_bias, keep_main_arg9_10]
  rfl

end Cert.KernelIdeal.Layers

end
-- ==== Proof.RefValue.lean ====
/-
  The reference's run, read back: the composed term of its 106 host operations IS the graph-convolution network of the
  named stages — three layers of projection, aggregation over the edges, bias and ReLU, then the readout — applied to the
  argument arrays, with the edges' sources, destinations and coefficients all computed from the edge list alone. Nothing is
  computed here: the stages' definitions unfold to the very operations the run composed.
-/
import proofs.«161257_j64467459113444_1_alg».proof.Proof.Gen.ReferenceIdeal.Run
import proofs.«161257_j64467459113444_1_alg».proof.Proof.HostStages

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Value Cert.Gcn

set_option maxHeartbeats 2000000 in
/-- The run's result term is the network of the stages. -/
theorem result_stages (m : (ℓ : Loc nD τ sig) → Buf (Elt Ideal) ℓ) (c : Dev nD) :
    res_main_v84 (F := Ideal) m c
      = network (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
          (srcIdx (m ((c.tc : Thread nD τ).loc main_arg1))) (dstIdx (m ((c.tc : Thread nD τ).loc main_arg1))) (edgeNorm (srcIdx (m ((c.tc : Thread nD τ).loc main_arg1))) (dstIdx (m ((c.tc : Thread nD τ).loc main_arg1)))) := by
  unfold res_main_v84
  rfl

end Cert.ReferenceIdeal.RefValue

end
-- ==== Proof.lean ====
/-
  A three-layer graph-convolution network with a linear readout, on 50000 nodes and 800000 edges plus one self-loop per node:
  each layer projects the activations by its weights, aggregates the projected rows over the edges with the symmetric
  normalisation `deg^(-1/2)[src] · deg^(-1/2)[dst]`, adds a bias and floors at zero; the readout is a product with a 32×1
  weight plus a bias. The kernel computes every projection, every bias-and-ReLU and the readout in launches over ten
  blocks of 5000 rows with operands rounded to bfloat16, and leaves the edge bookkeeping and the aggregations to the same
  host operations the reference uses; the reference computes everything on the host.
  On the extended reals the rounding is the identity, a block of rows of a matrix product is the product of the block of
  rows, the bias and the ReLU act entry by entry, and the blocks tile the rows: so each launch leaves the reference's
  whole-array stage (`rowsTimes`, `biasFloor`, `rowsTimesPlus`) of the arrays it finds, and the kernel's result is the
  reference's network, stage by stage, applied to the same arguments. No algebraic law beyond reading both spellings of a
  stage as the same sums of the same products is needed, and no finiteness: the precondition is never opened.
  The three frames are the generated ones (the reference's is its generated run with the result dropped); the ideal pass
  rewrote nothing, so the kernel's idealization is its own text.
-/
import proofs.«161257_j64467459113444_1_alg».proof.Defs
import proofs.«161257_j64467459113444_1_alg».proof.Proof.Gen.Kernel
import proofs.«161257_j64467459113444_1_alg».proof.Proof.Gen.Kernel.Skeleton
import proofs.«161257_j64467459113444_1_alg».proof.Proof.Gen.Kernel.Launch
import proofs.«161257_j64467459113444_1_alg».proof.Proof.Gen.Kernel.Points
import proofs.«161257_j64467459113444_1_alg».proof.Proof.Gen.Kernel.Frame
import proofs.«161257_j64467459113444_1_alg».proof.Proof.Gen.KernelIdeal
import proofs.«161257_j64467459113444_1_alg».proof.Proof.Gen.KernelIdeal.Skeleton
import proofs.«161257_j64467459113444_1_alg».proof.Proof.Gen.KernelIdeal.Launch
import proofs.«161257_j64467459113444_1_alg».proof.Proof.Gen.KernelIdeal.Points
import proofs.«161257_j64467459113444_1_alg».proof.Proof.Gen.KernelIdeal.Frame
import proofs.«161257_j64467459113444_1_alg».proof.Proof.Gen.ReferenceIdeal
import proofs.«161257_j64467459113444_1_alg».proof.Proof.Gen.Pre_finite_inputs
import proofs.«161257_j64467459113444_1_alg».proof.Proof.Gen.ReferenceIdeal.Run
import proofs.«161257_j64467459113444_1_alg».proof.Proof.Gen.ReferenceIdeal.Read
import proofs.«161257_j64467459113444_1_alg».proof.Proof.KernelRun
import proofs.«161257_j64467459113444_1_alg».proof.Proof.Chain
import proofs.«161257_j64467459113444_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel ends with its result buffer at the network of the stages (the run with its result named, read back
    through the segment boundaries); the idealized reference ends at the same network in the host's spelling (its run,
    read back), whose dense stages are those whole-array functions; the arguments agree. -/
theorem algebraic : Cert.algebraic_KernelIdeal_ReferenceIdeal := by
  intro m ρ m' ρ' _ hagree
  refine ⟨fun c => Cert.KernelIdeal.Gen.W12 m ρ c (Proc.devRef .tc Cert.KernelIdeal.main_v76),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  have hk := Cert.KernelIdeal.Layers.result_rows m ρ c
  have hr := (Cert.ReferenceIdeal.RefValue.result_stages m' c).trans
    (Cert.Gcn.network_eq _ _ _ _ _ _ _ _ _ _ _ _ Cert.KernelIdeal.Gen.shapeCasts_S128_S1x128 Cert.KernelIdeal.Gen.shapeCasts_S64_S1x64
      Cert.KernelIdeal.Gen.shapeCasts_S32_S1x32 Cert.KernelIdeal.Gen.shapeCasts_S1_S1x1)
  obtain ⟨a0, a1, a2, a3, a4, a5, a6, a7, a8, a9⟩ := hagree c
  rw [a0, a1, a2, a3, a4, a5, a6, a7, a8, a9] at hr
  exact hr.trans hk.symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
